-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x7 .f32) (main_arg5 : FVec F S7 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg4
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S2000x512 : Shape := ⟨2, ![2000, 512]⟩
abbrev S2000x16 : Shape := ⟨2, ![2000, 16]⟩
abbrev S3300000x16 : Shape := ⟨2, ![3300000, 16]⟩
abbrev S1x16 : Shape := ⟨2, ![1, 16]⟩
abbrev S10000x16 : Shape := ⟨2, ![10000, 16]⟩
abbrev S100000x7 : Shape := ⟨2, ![100000, 7]⟩
abbrev S10000x7 : Shape := ⟨2, ![10000, 7]⟩
abbrev S3300000x7 : Shape := ⟨2, ![3300000, 7]⟩
abbrev S1x7 : Shape := ⟨2, ![1, 7]⟩
abbrev S10000 : Shape := ⟨1, ![10000]⟩
abbrev S10000x1 : Shape := ⟨2, ![10000, 1]⟩

abbrev nBuf : Space → Nat
  | .hbm => 84
  | .vmem => 20
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x7, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x7, .f32⟩
  | .hbm, ⟨75, _⟩ => ⟨S3300000x1, .f32⟩
  | .hbm, ⟨76, _⟩ => ⟨S3300000x7, .f32⟩
  | .hbm, ⟨77, _⟩ => ⟨S3300000x7, .f32⟩
  | .hbm, ⟨78, _⟩ => ⟨S_, .f32⟩
  | .hbm, ⟨79, _⟩ => ⟨S100000x7, .f32⟩
  | .hbm, ⟨80, _⟩ => ⟨S3300000x1, .i32⟩
  | .hbm, ⟨81, _⟩ => ⟨S100000x7, .f32⟩
  | .hbm, ⟨82, _⟩ => ⟨S1x7, .f32⟩
  | .hbm, ⟨83, _⟩ => ⟨S100000x7, .f32⟩
  | .local _ .vmem, ⟨0, _⟩ => ⟨S2000x512, .f32⟩
  | .local _ .vmem, ⟨1, _⟩ => ⟨S2000x512, .f32⟩
  | .local _ .vmem, ⟨2, _⟩ => ⟨S512x16, .f32⟩
  | .local _ .vmem, ⟨3, _⟩ => ⟨S2000x16, .f32⟩
  | .local _ .vmem, ⟨4, _⟩ => ⟨S2000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S16x7, .f32⟩
  | .local _ .vmem, ⟨13, _⟩ => ⟨S10000x7, .f32⟩
  | .local _ .vmem, ⟨14, _⟩ => ⟨S10000x7, .f32⟩
  | .local _ .vmem, ⟨15, _⟩ => ⟨S10000x7, .f32⟩
  | .local _ .vmem, ⟨16, _⟩ => ⟨S10000x7, .f32⟩
  | .local _ .vmem, ⟨17, _⟩ => ⟨S1x7, .f32⟩
  | .local _ .vmem, ⟨18, _⟩ => ⟨S10000x7, .f32⟩
  | .local _ .vmem, ⟨19, _⟩ => ⟨S10000x7, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x7 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x7 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x7 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x7 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x7 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S2000x16_S2000x16_0_0 : ∀ a, (![0, 0] : Fin 2 → Nat) a + S2000x16.size a ≤ S2000x16.size a
  h_S2000x16 : 0 < S2000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S16x7_S16x7_0_0 : ∀ a, (![0, 0] : Fin 2 → Nat) a + S16x7.size a ≤ S16x7.size a
  h_S16x7 : 0 < S16x7.numel
  inb_S10000x7_S10000x7_0_0 : ∀ a, (![0, 0] : Fin 2 → Nat) a + S10000x7.size a ≤ S10000x7.size a
  h_S10000x7 : 0 < S10000x7.numel
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  shapeCasts_S7_S1x7 : S7.ShapeCasts S1x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S10000x7 : S1x7.Broadcasts S10000x7
  shapeCasts_S10000x7_S10000x7 : S10000x7.ShapeCasts S10000x7
  reduces_S10000x7_S10000 : S10000x7.Reduces [1] S10000
  shapeCasts_S10000_S10000x1 : S10000.ShapeCasts S10000x1
  broadcasts_S10000x1_S10000x7 : S10000x1.Broadcasts S10000x7
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x512_S512x16_S2000x16_1_0_0_1_n_n_wf : DotDims.WF S2000x512 S512x16 S2000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x7_S10000x7_1_0_0_1_n_n_wf : DotDims.WF S10000x16 S16x7 S10000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x7.size a ≤ S16x7.size a
  hwx2_1 : ∀ i : grid2.Coords, EltTy.bits .f32 = 32 ∨ (Rect.block (s := S16x7) S16x7.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x7.size a ≤ S100000x7.size a
  hwx2_2 : ∀ i : grid2.Coords, EltTy.bits .f32 = 32 ∨ (Rect.block (s := S100000x7) S10000x7.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x7.size a ≤ S100000x7.size a
  hwx3_0 : ∀ i : grid3.Coords, EltTy.bits .f32 = 32 ∨ (Rect.block (s := S100000x7) S10000x7.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x7.size a ≤ S1x7.size a
  hwx3_1 : ∀ i : grid3.Coords, EltTy.bits .f32 = 32 ∨ (Rect.block (s := S1x7) S1x7.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x7.size a ≤ S100000x7.size a
  hwx3_2 : ∀ i : grid3.Coords, EltTy.bits .f32 = 32 ∨ (Rect.block (s := S100000x7) S10000x7.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x512_S512x16_S2000x16_1_0_0_1_n_n : DotDims S2000x512 S512x16 S2000x16 where
  lhsContracting := [1]
  rhsContracting := [0]
  lhsNonContracting := [0]
  rhsNonContracting := [1]
  lhsBatch := []
  rhsBatch := []
  wf := dot_S2000x512_S512x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x7_S10000x7_1_0_0_1_n_n : DotDims S10000x16 S16x7 S10000x7 where
  lhsContracting := [1]
  rhsContracting := [0]
  lhsNonContracting := [0]
  rhsNonContracting := [1]
  lhsBatch := []
  rhsBatch := []
  wf := dot_S10000x16_S16x7_S10000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x7.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x7.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x7.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x7.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x7.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x7 : Shape := ⟨2, ![100000, 7]⟩
abbrev S3300000x7 : Shape := ⟨2, ![3300000, 7]⟩
abbrev S1x7 : Shape := ⟨2, ![1, 7]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x7, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x7, .f32⟩
  | .hbm, ⟨79, _⟩ => ⟨S3300000x1, .f32⟩
  | .hbm, ⟨80, _⟩ => ⟨S3300000x7, .f32⟩
  | .hbm, ⟨81, _⟩ => ⟨S3300000x7, .f32⟩
  | .hbm, ⟨82, _⟩ => ⟨S_, .f32⟩
  | .hbm, ⟨83, _⟩ => ⟨S100000x7, .f32⟩
  | .hbm, ⟨84, _⟩ => ⟨S3300000x1, .i32⟩
  | .hbm, ⟨85, _⟩ => ⟨S100000x7, .f32⟩
  | .hbm, ⟨86, _⟩ => ⟨S1x7, .f32⟩
  | .hbm, ⟨87, _⟩ => ⟨S100000x7, .f32⟩
  | .hbm, ⟨88, _⟩ => ⟨S100000x7, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x7, .f32⟩
  | .hbm, ⟨96, _⟩ => ⟨S100000x7, .f32⟩
  | .hbm, ⟨97, _⟩ => ⟨S100000x7, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x7, .f32⟩
  | .hbm, ⟨103, _⟩ => ⟨S100000x7, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x7_S100000x7_1_0_0_1_n_n_wf : DotDims.WF S100000x16 S16x7 S100000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

class Facts : Prop extends Facts₀ where

variable [Facts]
-- ==== Proof.KernelRun.lean ====
/-
  The idealized kernel's run with its result array named.

  The program is nine segments in order: three stretches of host operations (the edge lists with self-loops, the degrees
  and their inverse square roots, the per-edge weights), the first matrix product, a stretch of host operations (gather
  the rows at the sources, scale by the weights, sum at the targets), the bias-and-rectifier pass, the second matrix
  product, the same gather / scale / sum stretch, and the bias-and-log-softmax pass. Every weakly fair execution
  terminates without a fault, and at the end every unscoped buffer of a core holds what the fold of the segments
  leaves in it. Read at the result buffer this names the result; read at an argument it is the argument as launched.
-/
import proofs.«162182_j59244778881669_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, nothing faulting, with the result buffer at the last boundary's
    contents and the six arguments as launched. -/
theorem run_result : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.RunValue

end
-- ==== Proof.WalkGraph.lean ====
/-
  The idealized kernel's buffers when its first region is entered, and the buffers later regions find unchanged.

  Before the first matrix product the program runs three stretches of host operations on the edge list alone: the sources
  and targets with the self-loops appended, the degree of every node (a scatter-add of ones), its inverse square root where
  the degree is positive, and the per-edge weight, the product of the two ends' values. The reference runs the same
  operations, so what these stretches leave is the reference's stage function of the edge list (`val_main_v3`,
  `val_main_v6`, `val_main_v29`), and the six arguments are as launched. No later stretch or region writes these
  buffers: each later boundary finds them as the first region did.
-/
import proofs.«162182_j59244778881669_1_alg».proof.Proof.Gen.KernelIdeal.Frame
import proofs.«162182_j59244778881669_1_alg».proof.Proof.ReadP
import Idealize.ShloMosaic.Lib.StableHlo.Run

set_option maxRecDepth 16384

noncomputable section

namespace Cert.KernelIdeal.Walk

open Cert.KernelIdeal Cert.KernelIdeal.Gen Cert.ReferenceIdeal.ReadP
open Idealize.ShloMosaic Idealize.ShloMosaic.TcCoe Idealize.SL.Sem Idealize.ShloMosaic.StableHlo

variable {F : FTy → Type} [FloatOps F] (m : (ℓ : Loc nD τ sig) → Buf (Elt F) ℓ) (ρ : Dev nD → PrngReg) (c : Dev nD)

/-! ## What the first region finds -/

set_option maxHeartbeats 8000000 in
/-- The sources with self-loops. -/
theorem W3_v3 : W3 m ρ c (Proc.devRef .tc main_v3) = val_main_v3 (F := F) (m ((c : Thread nD τ).loc main_arg1)) := by
  show StableHlo.after hostOps0_2 (StableHlo.after hostOps0_1 (StableHlo.after hostOps0 (W0 m ρ c))) _ = _
  after_results
  simp only [cast_eq]
  simp only [val_main_v0, val_main_v1, val_main_v2, val_main_v3]
  rfl

set_option maxHeartbeats 8000000 in
/-- The targets with self-loops. -/
theorem W3_v6 : W3 m ρ c (Proc.devRef .tc main_v6) = val_main_v6 (F := F) (m ((c : Thread nD τ).loc main_arg1)) := by
  show StableHlo.after hostOps0_2 (StableHlo.after hostOps0_1 (StableHlo.after hostOps0 (W0 m ρ c))) _ = _
  after_results
  simp only [cast_eq]
  simp only [val_main_v0, val_main_v1, val_main_v2, val_main_v3, val_main_v4, val_main_v5, val_main_v6]
  rfl

set_option maxHeartbeats 8000000 in
/-- The per-edge weights. -/
theorem W3_v29 : W3 m ρ c (Proc.devRef .tc main_v29) = val_main_v29 (F := F) (m ((c : Thread nD τ).loc main_arg1)) := by
  show StableHlo.after hostOps0_2 (StableHlo.after hostOps0_1 (StableHlo.after hostOps0 (W0 m ρ c))) _ = _
  after_results_simp
  simp only [cast_eq]
  simp only [val_main_v0, val_main_v1, val_main_v2, val_main_v3, val_main_v4, val_main_v5, val_main_v6, val_main_cst, val_main_v7, val_main_cst_0, val_main_v8, val_main_v9, val_main_v10, val_main_cst_1, val_main_v11, val_main_v12, val_main_v13, val_main_cst_2, val_main_call0_v0, val_main_call0_v1, val_main_v14, val_main_c, val_main_v15, val_main_v16, val_main_c_3, val_main_v17, val_main_v18, val_main_v19, val_main_v20, val_main_v21, val_main_c_4, val_main_v22, val_main_v23, val_main_c_5, val_main_v24, val_main_v25, val_main_v26, val_main_v27, val_main_v28, val_main_v29]
  rfl

/-- Argument 0 is as launched: no host operation writes it. -/
theorem W3_arg0 : W3 m ρ c (Proc.devRef .tc main_arg0) = m ((c : Thread nD τ).loc main_arg0) := by
  show StableHlo.after hostOps0_2 (StableHlo.after hostOps0_1 (StableHlo.after hostOps0 (W0 m ρ c))) _ = _
  after_results

/-- Argument 2 is as launched: no host operation writes it. -/
theorem W3_arg2 : W3 m ρ c (Proc.devRef .tc main_arg2) = m ((c : Thread nD τ).loc main_arg2) := by
  show StableHlo.after hostOps0_2 (StableHlo.after hostOps0_1 (StableHlo.after hostOps0 (W0 m ρ c))) _ = _
  after_results

/-- Argument 3 is as launched: no host operation writes it. -/
theorem W3_arg3 : W3 m ρ c (Proc.devRef .tc main_arg3) = m ((c : Thread nD τ).loc main_arg3) := by
  show StableHlo.after hostOps0_2 (StableHlo.after hostOps0_1 (StableHlo.after hostOps0 (W0 m ρ c))) _ = _
  after_results

/-- Argument 4 is as launched: no host operation writes it. -/
theorem W3_arg4 : W3 m ρ c (Proc.devRef .tc main_arg4) = m ((c : Thread nD τ).loc main_arg4) := by
  show StableHlo.after hostOps0_2 (StableHlo.after hostOps0_1 (StableHlo.after hostOps0 (W0 m ρ c))) _ = _
  after_results

/-- Argument 5 is as launched: no host operation writes it. -/
theorem W3_arg5 : W3 m ρ c (Proc.devRef .tc main_arg5) = m ((c : Thread nD τ).loc main_arg5) := by
  show StableHlo.after hostOps0_2 (StableHlo.after hostOps0_1 (StableHlo.after hostOps0 (W0 m ρ c))) _ = _
  after_results

end Cert.KernelIdeal.Walk

end
-- ==== Proof.WalkHost.lean ====
/-
  The two gather / scale / scatter-add stretches of the idealized kernel, read once over the arrays they find.

  After each matrix product the program gathers the product's rows at the edge sources, scales every gathered row by its
  edge's weight, and sums the rows at the edge targets, starting from zero; it also reshapes the layer's bias vector to a
  one-row matrix for the next region. These are the reference's own operations on the same arrays. So if the stretch finds
  the reference's stage functions in the product's buffer and in the three edge-list buffers, it leaves the reference's
  stage function in the sum's buffer. Stated for any float instance: nothing is computed, the operations are matched in
  order with the stage definitions.
-/
import proofs.«162182_j59244778881669_1_alg».proof.Proof.Gen.KernelIdeal.Frame
import proofs.«162182_j59244778881669_1_alg».proof.Proof.ReadP
import Idealize.ShloMosaic.Lib.StableHlo.Run

set_option maxRecDepth 16384

noncomputable section

namespace Cert.KernelIdeal.Walk

open Cert.KernelIdeal Cert.KernelIdeal.Gen Cert.ReferenceIdeal.ReadP
open Idealize.ShloMosaic Idealize.ShloMosaic.TcCoe Idealize.SL.Sem Idealize.ShloMosaic.StableHlo

variable {F : FTy → Type} [FloatOps F] (m : (ℓ : Loc nD τ sig) → Buf (Elt F) ℓ) (ρ : Dev nD → PrngReg) (c : Dev nD)

set_option maxHeartbeats 16000000 in
/-- The first layer's summed messages: the stretch after the first product, over what it finds. -/
theorem W5_v43_of (x0 : (⟨S100000x512, .f32⟩ : BufTy).Contents (Elt F)) (x1 : (⟨S2x3200000, .i32⟩ : BufTy).Contents (Elt F)) (x2 : (⟨S512x16, .f32⟩ : BufTy).Contents (Elt F))
    (e30 : W4 m ρ c (Proc.devRef .tc main_v30) = val_main_v30 (F := F) x0 x2)
    (e3 : W4 m ρ c (Proc.devRef .tc main_v3) = val_main_v3 (F := F) x1)
    (e6 : W4 m ρ c (Proc.devRef .tc main_v6) = val_main_v6 (F := F) x1)
    (e29 : W4 m ρ c (Proc.devRef .tc main_v29) = val_main_v29 (F := F) x1) :
    W5 m ρ c (Proc.devRef .tc main_v43) = val_main_v43 (F := F) x0 x1 x2 := by
  show StableHlo.after hostOps1 (W4 m ρ c) (Proc.devRef .tc main_v43) = _
  after_results
  rw [e30, e3, e6, e29]
  simp only [val_main_c_6, val_main_v31, val_main_v32, val_main_c_7, val_main_v33, val_main_v34, val_main_v35, val_main_v36, val_main_v37, val_main_v38, val_main_v39, val_main_v40, val_main_cst_8, val_main_v41, val_main_v42, val_main_v43]
  rfl

/-- The first layer's bias as a one-row matrix. -/
theorem W5_v44_of (x3 : (⟨S16, .f32⟩ : BufTy).Contents (Elt F)) (e : W4 m ρ c (Proc.devRef .tc main_arg3) = x3) :
    W5 m ρ c (Proc.devRef .tc main_v44) = shapeCast S1x16 x3 shapeCasts_S16_S1x16 := by
  show StableHlo.after hostOps1 (W4 m ρ c) (Proc.devRef .tc main_v44) = _
  after_results
  simp only [cast_eq]
  rw [e]
  rfl

set_option maxHeartbeats 16000000 in
/-- The second layer's summed messages: the stretch after the second product, over what it finds. -/
theorem W8_v59_of (x0 : (⟨S100000x512, .f32⟩ : BufTy).Contents (Elt F)) (x1 : (⟨S2x3200000, .i32⟩ : BufTy).Contents (Elt F)) (x2 : (⟨S512x16, .f32⟩ : BufTy).Contents (Elt F)) (x3 : (⟨S16, .f32⟩ : BufTy).Contents (Elt F)) (x4 : (⟨S16x7, .f32⟩ : BufTy).Contents (Elt F))
    (e46 : W7 m ρ c (Proc.devRef .tc main_v46) = val_main_v48 (F := F) x0 x1 x2 x3 x4)
    (e3 : W7 m ρ c (Proc.devRef .tc main_v3) = val_main_v3 (F := F) x1)
    (e6 : W7 m ρ c (Proc.devRef .tc main_v6) = val_main_v6 (F := F) x1)
    (e29 : W7 m ρ c (Proc.devRef .tc main_v29) = val_main_v29 (F := F) x1) :
    W8 m ρ c (Proc.devRef .tc main_v59) = val_main_v61 (F := F) x0 x1 x2 x3 x4 := by
  show StableHlo.after hostOps3 (W7 m ρ c) (Proc.devRef .tc main_v59) = _
  after_results
  rw [e46, e3, e6, e29]
  simp only [val_main_c_9, val_main_v49, val_main_v50, val_main_c_10, val_main_v51, val_main_v52, val_main_v53, val_main_v54, val_main_v55, val_main_v56, val_main_v57, val_main_v58, val_main_cst_11, val_main_v59, val_main_v60, val_main_v61]
  rfl

/-- The second layer's bias as a one-row matrix. -/
theorem W8_v60_of (x5 : (⟨S7, .f32⟩ : BufTy).Contents (Elt F)) (e : W7 m ρ c (Proc.devRef .tc main_arg5) = x5) :
    W8 m ρ c (Proc.devRef .tc main_v60) = shapeCast S1x7 x5 shapeCasts_S7_S1x7 := by
  show StableHlo.after hostOps3 (W7 m ρ c) (Proc.devRef .tc main_v60) = _
  after_results
  simp only [cast_eq]
  rw [e]
  rfl

end Cert.KernelIdeal.Walk

end
-- ==== Proof.WalkKeep.lean ====
/-
  Buffers that later segments of the run leave unchanged.

  Between the entry of the first pass and the exit of the third, the run has four segments: the first pass, a stretch of
  seventeen host operations, the second pass and the third pass. A pass changes only its own three arrays, and a host
  operation only its one result buffer. A buffer that is none of these therefore holds, at each of those boundaries, what it
  held at the entry of the first pass; the equations below say so for the buffers the later segments read.
-/
import proofs.«162182_j59244778881669_1_alg».proof.Proof.Gen.KernelIdeal.Frame
import Idealize.ShloMosaic.Lib.StableHlo.Run

set_option maxRecDepth 16384

noncomputable section

namespace Cert.KernelIdeal.Keep

open Cert.KernelIdeal Cert.KernelIdeal.Gen Idealize.ShloMosaic Idealize.ShloMosaic.TcCoe Idealize.SL.Sem Idealize.ShloMosaic.StableHlo

variable {F : FTy → Type} [FloatOps F] (m : (ℓ : Loc nD τ sig) → Buf (Elt F) ℓ) (ρ : Dev nD → PrngReg) (c : Dev nD)

/-! ## The host stretch between the first and the second pass writes none of these buffers -/

theorem host1_main_v3 : W5 m ρ c (Proc.devRef .tc main_v3) = W4 m ρ c (Proc.devRef .tc main_v3) := by
  show StableHlo.after hostOps1 (W4 m ρ c) (Proc.devRef .tc main_v3) = W4 m ρ c (Proc.devRef .tc main_v3)
  after_results
theorem host1_main_v6 : W5 m ρ c (Proc.devRef .tc main_v6) = W4 m ρ c (Proc.devRef .tc main_v6) := by
  show StableHlo.after hostOps1 (W4 m ρ c) (Proc.devRef .tc main_v6) = W4 m ρ c (Proc.devRef .tc main_v6)
  after_results
theorem host1_main_v29 : W5 m ρ c (Proc.devRef .tc main_v29) = W4 m ρ c (Proc.devRef .tc main_v29) := by
  show StableHlo.after hostOps1 (W4 m ρ c) (Proc.devRef .tc main_v29) = W4 m ρ c (Proc.devRef .tc main_v29)
  after_results
theorem host1_main_arg3 : W5 m ρ c (Proc.devRef .tc main_arg3) = W4 m ρ c (Proc.devRef .tc main_arg3) := by
  show StableHlo.after hostOps1 (W4 m ρ c) (Proc.devRef .tc main_arg3) = W4 m ρ c (Proc.devRef .tc main_arg3)
  after_results
theorem host1_main_arg4 : W5 m ρ c (Proc.devRef .tc main_arg4) = W4 m ρ c (Proc.devRef .tc main_arg4) := by
  show StableHlo.after hostOps1 (W4 m ρ c) (Proc.devRef .tc main_arg4) = W4 m ρ c (Proc.devRef .tc main_arg4)
  after_results
theorem host1_main_arg5 : W5 m ρ c (Proc.devRef .tc main_arg5) = W4 m ρ c (Proc.devRef .tc main_arg5) := by
  show StableHlo.after hostOps1 (W4 m ρ c) (Proc.devRef .tc main_arg5) = W4 m ρ c (Proc.devRef .tc main_arg5)
  after_results

/-! ## At the entry of the second pass: the first pass and the host stretch behind -/

theorem W5_main_v3 : W5 m ρ c (Proc.devRef .tc main_v3) = W3 m ρ c (Proc.devRef .tc main_v3) :=
  (host1_main_v3 m ρ c).trans (W4_of_ne m ρ c main_v3 (by decide))
theorem W5_main_v6 : W5 m ρ c (Proc.devRef .tc main_v6) = W3 m ρ c (Proc.devRef .tc main_v6) :=
  (host1_main_v6 m ρ c).trans (W4_of_ne m ρ c main_v6 (by decide))
theorem W5_main_v29 : W5 m ρ c (Proc.devRef .tc main_v29) = W3 m ρ c (Proc.devRef .tc main_v29) :=
  (host1_main_v29 m ρ c).trans (W4_of_ne m ρ c main_v29 (by decide))
theorem W5_main_arg3 : W5 m ρ c (Proc.devRef .tc main_arg3) = W3 m ρ c (Proc.devRef .tc main_arg3) :=
  (host1_main_arg3 m ρ c).trans (W4_of_ne m ρ c main_arg3 (by decide))
theorem W5_main_arg4 : W5 m ρ c (Proc.devRef .tc main_arg4) = W3 m ρ c (Proc.devRef .tc main_arg4) :=
  (host1_main_arg4 m ρ c).trans (W4_of_ne m ρ c main_arg4 (by decide))

/-! ## At the exit of the second pass, which is the entry of the third -/

theorem W6_main_v3 : W6 m ρ c (Proc.devRef .tc main_v3) = W3 m ρ c (Proc.devRef .tc main_v3) :=
  (W6_of_ne m ρ c main_v3 (by decide)).trans ((host1_main_v3 m ρ c).trans (W4_of_ne m ρ c main_v3 (by decide)))
theorem W6_main_v6 : W6 m ρ c (Proc.devRef .tc main_v6) = W3 m ρ c (Proc.devRef .tc main_v6) :=
  (W6_of_ne m ρ c main_v6 (by decide)).trans ((host1_main_v6 m ρ c).trans (W4_of_ne m ρ c main_v6 (by decide)))
theorem W6_main_v29 : W6 m ρ c (Proc.devRef .tc main_v29) = W3 m ρ c (Proc.devRef .tc main_v29) :=
  (W6_of_ne m ρ c main_v29 (by decide)).trans ((host1_main_v29 m ρ c).trans (W4_of_ne m ρ c main_v29 (by decide)))
theorem W6_main_arg4 : W6 m ρ c (Proc.devRef .tc main_arg4) = W3 m ρ c (Proc.devRef .tc main_arg4) :=
  (W6_of_ne m ρ c main_arg4 (by decide)).trans ((host1_main_arg4 m ρ c).trans (W4_of_ne m ρ c main_arg4 (by decide)))
theorem W6_main_arg5 : W6 m ρ c (Proc.devRef .tc main_arg5) = W3 m ρ c (Proc.devRef .tc main_arg5) :=
  (W6_of_ne m ρ c main_arg5 (by decide)).trans ((host1_main_arg5 m ρ c).trans (W4_of_ne m ρ c main_arg5 (by decide)))

/-! ## At the exit of the third pass -/

theorem W7_main_v3 : W7 m ρ c (Proc.devRef .tc main_v3) = W3 m ρ c (Proc.devRef .tc main_v3) :=
  (W7_of_ne m ρ c main_v3 (by decide)).trans ((W6_of_ne m ρ c main_v3 (by decide)).trans ((host1_main_v3 m ρ c).trans (W4_of_ne m ρ c main_v3 (by decide))))
theorem W7_main_v6 : W7 m ρ c (Proc.devRef .tc main_v6) = W3 m ρ c (Proc.devRef .tc main_v6) :=
  (W7_of_ne m ρ c main_v6 (by decide)).trans ((W6_of_ne m ρ c main_v6 (by decide)).trans ((host1_main_v6 m ρ c).trans (W4_of_ne m ρ c main_v6 (by decide))))
theorem W7_main_v29 : W7 m ρ c (Proc.devRef .tc main_v29) = W3 m ρ c (Proc.devRef .tc main_v29) :=
  (W7_of_ne m ρ c main_v29 (by decide)).trans ((W6_of_ne m ρ c main_v29 (by decide)).trans ((host1_main_v29 m ρ c).trans (W4_of_ne m ρ c main_v29 (by decide))))
theorem W7_main_arg5 : W7 m ρ c (Proc.devRef .tc main_arg5) = W3 m ρ c (Proc.devRef .tc main_arg5) :=
  (W7_of_ne m ρ c main_arg5 (by decide)).trans ((W6_of_ne m ρ c main_arg5 (by decide)).trans ((host1_main_arg5 m ρ c).trans (W4_of_ne m ρ c main_arg5 (by decide))))

end Cert.KernelIdeal.Keep

end
-- ==== Proof.Spec.lean ====
/-
  The four dense passes of a two-layer graph convolution, each as ONE function of whole arrays on the extended reals,
  entry by entry.

  * `prod l r`: the matrix product, `(l · r)[p, c] = ∑ k, l[p, k] · r[k, c]`.
  * `addRow a b`: a row vector (a `[1, C]` array) added to every row, `a[p, c] + b[0, c]`.
  * `biasRelu a b`: the rectifier of that sum, `max (a[p, c] + b[0, c]) 0`.
  * `rowMax z p`: the greatest entry of row `p`, a fold of `max` over the columns from the value of the word of `-∞`.
  * `logSoftmax z`: `(z[p, c] - rowMax z p) - log (∑ c', exp (z[p, c'] - rowMax z p))`, and `biasLogSoftmax a b` the same of
    `addRow a b`.

  The float words `0x00000000` (zero) and `0xFF800000` (`-∞`) are kept as the words they are printed as: the same word
  stands on both sides of every comparison made with these functions, so its value is never needed, except that the
  zero word is the additive zero.
-/
import Idealize.ShloMosaic.Lib.ValueIdx
import Idealize.ShloMosaic.PureOps.Ideal.Laws
import Mathlib.Data.Finset.Fold

noncomputable section

namespace Cert.Spec

open Idealize.ShloMosaic Idealize.ShloMosaic.ValueIdx

variable {M K N C : ℕ}

/-- The matrix product: entry `(p, c)` is `∑ k, l[p, k] · r[k, c]`. -/
def prod (l : FVec Ideal ⟨2, ![M, K]⟩ .f32) (r : FVec Ideal ⟨2, ![K, N]⟩ .f32) : FVec Ideal ⟨2, ![M, N]⟩ .f32 :=
  fun i => ∑ k : Fin K, l (ix2 (i 0) k) * r (ix2 k (i 1))

theorem prod_apply (l : FVec Ideal ⟨2, ![M, K]⟩ .f32) (r : FVec Ideal ⟨2, ![K, N]⟩ .f32) (p : Fin M) (c : Fin N) :
    prod l r (ix2 p c) = ∑ k : Fin K, l (ix2 p k) * r (ix2 k c) := rfl

/-- A row vector added to every row: entry `(p, c)` is `a[p, c] + b[0, c]`. -/
def addRow (a : FVec Ideal ⟨2, ![N, C]⟩ .f32) (b : FVec Ideal ⟨2, ![1, C]⟩ .f32) : FVec Ideal ⟨2, ![N, C]⟩ .f32 :=
  fun i => a i + b (ix2 (0 : Fin 1) (i 1))

theorem addRow_apply (a : FVec Ideal ⟨2, ![N, C]⟩ .f32) (b : FVec Ideal ⟨2, ![1, C]⟩ .f32) (p : Fin N) (c : Fin C) :
    addRow a b (ix2 p c) = a (ix2 p c) + b (ix2 (0 : Fin 1) c) := rfl

/-- Bias, then the rectifier: entry `(p, c)` is `max (a[p, c] + b[0, c]) 0`. -/
def biasRelu (a : FVec Ideal ⟨2, ![N, C]⟩ .f32) (b : FVec Ideal ⟨2, ![1, C]⟩ .f32) : FVec Ideal ⟨2, ![N, C]⟩ .f32 :=
  fun i => max (addRow a b i) (Ideal.ofBits .f32 0x00000000#32)

theorem biasRelu_apply (a : FVec Ideal ⟨2, ![N, C]⟩ .f32) (b : FVec Ideal ⟨2, ![1, C]⟩ .f32) (p : Fin N) (c : Fin C) :
    biasRelu a b (ix2 p c) = max (a (ix2 p c) + b (ix2 (0 : Fin 1) c)) (Ideal.ofBits .f32 0x00000000#32) := rfl

/-- The greatest entry of row `p`: the fold of `max` over the columns, from the value of the word of `-∞`. -/
def rowMax (z : FVec Ideal ⟨2, ![N, C]⟩ .f32) (p : Fin N) : EReal :=
  (Finset.univ : Finset (Fin C)).fold max (Ideal.ofBits .f32 0xFF800000#32) (fun c => z (ix2 p c))

/-- The log-softmax of every row: `(z[p, c] - m) - log (∑ c', exp (z[p, c'] - m))` with `m` the row's greatest entry. -/
def logSoftmax (z : FVec Ideal ⟨2, ![N, C]⟩ .f32) : FVec Ideal ⟨2, ![N, C]⟩ .f32 :=
  fun i => (z i - rowMax z (i 0)) - Ideal.log (∑ c : Fin C, Ideal.exp (z (ix2 (i 0) c) - rowMax z (i 0)))

theorem logSoftmax_apply (z : FVec Ideal ⟨2, ![N, C]⟩ .f32) (p : Fin N) (c : Fin C) :
    logSoftmax z (ix2 p c) = (z (ix2 p c) - rowMax z p) - Ideal.log (∑ c' : Fin C, Ideal.exp (z (ix2 p c') - rowMax z p)) := rfl

/-- Bias, then the log-softmax of every row. -/
def biasLogSoftmax (a : FVec Ideal ⟨2, ![N, C]⟩ .f32) (b : FVec Ideal ⟨2, ![1, C]⟩ .f32) : FVec Ideal ⟨2, ![N, C]⟩ .f32 :=
  logSoftmax (addRow a b)

/-- The start value of a fold of `max` is below the fold, so taking `max` with it again changes nothing. -/
theorem max_base_fold {ι : Type} (s : Finset ι) (b : EReal) (f : ι → EReal) : max b (s.fold max b f) = s.fold max b f :=
  max_eq_right ((Finset.le_fold_max b).mpr (Or.inl le_rfl))

end Cert.Spec

end
-- ==== Proof.Pass1.lean ====
/-
  The bias-and-rectifier pass as one function of whole arrays.

  The pass walks the [100000, 16] array in ten blocks of 10000 rows; at block `t` it reads rows `10000·t … 10000·t + 9999`
  of the summed messages and the one row of the bias, and writes `max (a[r, c] + b[0, c]) 0` to the same rows of its
  result. The ten blocks are disjoint and fill the array, so after the pass the result array is `Spec.biasRelu a b` of the
  two arrays the pass found on entry.
-/
import proofs.«162182_j59244778881669_1_alg».proof.Proof.Gen.KernelIdeal.Frame
import proofs.«162182_j59244778881669_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Pass1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's result at entry `(p, q)` of its block: the summed message plus the bias entry of its column, against zero. -/
theorem pay_apply (b : Vec Ideal S1x16 .f32) (a : Vec Ideal S10000x16 .f32) (p : Fin 10000) (q : Fin 16) :
    k1_pay1 b a (ix2 p q) = max (a (ix2 p q) + b (ix2 (0 : Fin 1) q)) (Ideal.ofBits .f32 0x00000000#32) := by
  unfold k1_pay1
  simp only [shapeCast_self]
  show max (a (ix2 p q) + broadcastTo S10000x16 b broadcasts_S1x16_S10000x16 (ix2 p q)) _ = _
  rw [broadcastTo_1b_ab_apply]
  rfl

/-- Where the three windows' blocks sit at grid point `t`: the two big windows at block row `t`, the bias at its one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `Spec.biasRelu` of the two arrays the pass found. -/
theorem flushed_eq (c : Dev nD) (t : Fin cfg1.N) :
    (dat1 V c).flushed 2 t = ((cfg1.win 2).blk t).view.read (Elt Ideal) (Cert.Spec.biasRelu (V c main_v43) (V c main_v44)) := by
  show (cfg1.win 2).cut (grid1.coords t) ((dat1 V c).after 2 t) = _
  rw [after1_2]
  unfold out1_2
  rw [View.canon_unit_zero hz]
  simp only [View.ld_unit_zero (S := S10000x16) hz, View.ld_unit_zero (S := S1x16) hz]
  have hN : cfg1.N = 10 := N_1
  have ht : t.val < 10 := hN ▸ t.isLt
  obtain ⟨e0, e1, e2, e3, e4, e5⟩ := idx_facts t
  funext j
  obtain ⟨p, q, rfl⟩ : ∃ (p : Fin 10000) (q : Fin 16), j = ix2 p q := ⟨j 0, j 1, eq_ix2 j⟩
  have hp : p.val < 10000 := p.isLt
  have hq : q.val < 16 := q.isLt
  show k1_pay1 (iblk1 V c 1 t) (iblk1 V c 0 t) (ix2 p q)
    = Cert.Spec.biasRelu (V c main_v43) (V c main_v44) (((cfg1.win 2).blk t).view.emb (ix2 p q))
  refine (pay_apply (iblk1 V c 1 t) (iblk1 V c 0 t) p q).trans ?_
  have ha : ((cfg1.win 0).blk t).view.emb (ix2 p q) = (ix2 (⟨t.val * 10000 + p.val, by omega⟩ : Fin 100000) q : S100000x16.Idx) := by
    funext a; apply Fin.ext
    match a with
    | ⟨0, _⟩ => show win1_0.index t (0 : Fin 2) * 10000 + 1 * p.val = t.val * 10000 + p.val; omega
    | ⟨1, _⟩ => show win1_0.index t (1 : Fin 2) * 16 + 1 * q.val = q.val; omega
  have hb : ((cfg1.win 1).blk t).view.emb (ix2 (0 : Fin 1) q) = (ix2 (0 : Fin 1) q : S1x16.Idx) := by
    funext a; apply Fin.ext
    match a with
    | ⟨0, _⟩ => show win1_1.index t (0 : Fin 2) * 1 + 1 * 0 = 0; omega
    | ⟨1, _⟩ => show win1_1.index t (1 : Fin 2) * 16 + 1 * q.val = q.val; omega
  have ho : ((cfg1.win 2).blk t).view.emb (ix2 p q) = (ix2 (⟨t.val * 10000 + p.val, by omega⟩ : Fin 100000) q : S100000x16.Idx) := by
    funext a; apply Fin.ext
    match a with
    | ⟨0, _⟩ => show win1_2.index t (0 : Fin 2) * 10000 + 1 * p.val = t.val * 10000 + p.val; omega
    | ⟨1, _⟩ => show win1_2.index t (1 : Fin 2) * 16 + 1 * q.val = q.val; omega
  let A : FVec Ideal S100000x16 .f32 := V c main_v43
  let B : FVec Ideal S1x16 .f32 := V c main_v44
  show max (A (((cfg1.win 0).blk t).view.emb (ix2 p q)) + B (((cfg1.win 1).blk t).view.emb (ix2 (0 : Fin 1) q))) (Ideal.ofBits .f32 0x00000000#32)
    = Cert.Spec.biasRelu A B (((cfg1.win 2).blk t).view.emb (ix2 p q))
  rw [ha, hb, ho, Cert.Spec.biasRelu_apply]

/-- An index of the result array is in point `t`'s block iff each coordinate is in the block's range on its axis. -/
theorem mem_blk (t : Fin cfg1.N) (i : S100000x16.Idx) :
    i ∈ ((cfg1.win 2).blk t).view.set ↔ ∀ a : Fin 2, win1_2.index t a * S10000x16.size a ≤ (i a).val ∧ (i a).val < win1_2.index t a * S10000x16.size a + S10000x16.size a := by
  show i ∈ ((View.whole main_v45).slice (win1_2.rect t)).set ↔ _
  rw [View.set_slice_whole, Rect.mem_set_unit]
  exact Iff.rfl

/-- Row `r` of the result is written at the point `r / 10000`: the ten blocks fill the array. -/
theorem cover (i : S100000x16.Idx) : ∃ t : Fin cfg1.N, (cfg1.win 2).flush t = true ∧ i ∈ ((cfg1.win 2).blk t).view.set := by
  have hN : cfg1.N = 10 := N_1
  have hi0 : (i 0).val < 100000 := (i 0).isLt
  have hi1 : (i 1).val < 16 := (i 1).isLt
  have htl : (i 0).val / 10000 < cfg1.N := by rw [hN]; omega
  obtain ⟨e0, e1, e2, e3, e4, e5⟩ := idx_facts ⟨(i 0).val / 10000, htl⟩
  refine ⟨⟨(i 0).val / 10000, htl⟩, flush1_2 _, ?_⟩
  rw [mem_blk]
  intro a
  match a with
  | ⟨0, _⟩ =>
    show win1_2.index ⟨(i 0).val / 10000, htl⟩ (0 : Fin 2) * 10000 ≤ (i 0).val ∧ (i 0).val < win1_2.index ⟨(i 0).val / 10000, htl⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, htl⟩ (1 : Fin 2) * 16 ≤ (i 1).val ∧ (i 1).val < win1_2.index ⟨(i 0).val / 10000, htl⟩ (1 : Fin 2) * 16 + 16
    rw [e5]; omega

/-- After the pass its result array is `Spec.biasRelu` of the summed messages and the bias row as the pass found them. -/
theorem final (c : Dev nD) : (dat1 V c).arrAt 2 cfg1.N = Cert.Spec.biasRelu (V c main_v43) (V c main_v44) :=
  (dat1 V c).arrAt_eq_of_cover 2 (Cert.Spec.biasRelu (V c main_v43) (V c main_v44)) (fun t _ => flushed_eq V c t) (cover)

end Cert.KernelIdeal.Pass1

end
-- ==== Proof.LibPlainProduct.lean ====
/-
  A plain matrix product into a zero accumulator, read at one entry.

  For a matrix `l` of shape `[M, K]` and a matrix `r` of shape `[K, N]`, contracted over `l`'s second axis and `r`'s first,
  the product's entry `(p, c)` on the extended reals is `∑ k, l[p, k] · r[k, c]`: the accumulator contributes the real `0`,
  the contraction index has a single axis of extent `K` and is traded for its one coordinate `k`, and the operand indices
  at the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.PlainProduct

open Idealize.ShloMosaic Idealize.ShloMosaic.ValueIdx

/-- Entry `(p, c)` of an `[M, K]` by `[K, N]` product into the zero accumulator is `∑ k, l[p, k] · r[k, c]`, for any dimension
    numbers `D` whose contraction has the one axis of extent `K` and whose operand indices read `(p, k)` and `(k, c)`. -/
theorem matmul_zero_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    FloatOps.matmul D none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.PlainProduct

end
-- ==== Proof.PassProduct.lean ====
/-
  The two matrix-product passes, each as one function of whole arrays.

  The first pass walks the [100000, 512] feature array in fifty blocks of 2000 rows; at block `t` it reads rows
  `2000·t … 2000·t + 1999` of the features and the whole [512, 16] weight array, and writes the product of the two blocks,
  `∑ k, x[r, k] · w[k, c]`, to the same rows of its [100000, 16] result. The second pass does the same with ten blocks of
  10000 rows of a [100000, 16] array against a whole [16, 7] weight array, into a [100000, 7] result. In each pass the
  blocks are disjoint and fill the result array, and a row of a block of the left operand is the same row of the whole
  array, so after the pass the result array is `Spec.prod` of the two arrays the pass found on entry.
-/
import proofs.«162182_j59244778881669_1_alg».proof.Proof.Gen.KernelIdeal.Frame
import proofs.«162182_j59244778881669_1_alg».proof.Proof.Spec
import proofs.«162182_j59244778881669_1_alg».proof.Proof.LibPlainProduct
import Idealize.ShloMosaic.Lib.Pipeline.Value
import Idealize.ShloMosaic.Lib.ValueIdx
import Idealize.ShloMosaic.Lib.ValueLayout

set_option maxRecDepth 16384

noncomputable section

namespace Cert.KernelIdeal.Pass0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! The product's dimension numbers contract the left operand's second axis with the right operand's first: at the output
    index `j` and the contraction coordinate `k` the left operand is read at `(j 0, k)` and the right at `(k, j 1)`. -/

theorem lhs_0 (j : S2000x16.Idx) (k : dot_S2000x512_S512x16_S2000x16_1_0_0_1_n_n.contr.Idx) :
    (dot_S2000x512_S512x16_S2000x16_1_0_0_1_n_n.lhsIdx j k (0 : Fin 2)).val = (j (0 : Fin 2)).val := by
  unfold DotDims.lhsIdx
  rw [dif_neg (show ¬(0 : Fin S2000x512.rank) ∈ dot_S2000x512_S512x16_S2000x16_1_0_0_1_n_n.lhsBatch by decide), dif_pos (show (0 : Fin S2000x512.rank) ∈ dot_S2000x512_S512x16_S2000x16_1_0_0_1_n_n.lhsNonContracting by decide)]
  rfl
theorem lhs_1 (j : S2000x16.Idx) (k : dot_S2000x512_S512x16_S2000x16_1_0_0_1_n_n.contr.Idx) :
    (dot_S2000x512_S512x16_S2000x16_1_0_0_1_n_n.lhsIdx j k (1 : Fin 2)).val = (k ⟨0, by decide⟩).val :=
  dot_S2000x512_S512x16_S2000x16_1_0_0_1_n_n.lhsIdx_val_of_single rfl j k
theorem rhs_0 (j : S2000x16.Idx) (k : dot_S2000x512_S512x16_S2000x16_1_0_0_1_n_n.contr.Idx) :
    (dot_S2000x512_S512x16_S2000x16_1_0_0_1_n_n.rhsIdx j k (0 : Fin 2)).val = (k ⟨0, by decide⟩).val :=
  dot_S2000x512_S512x16_S2000x16_1_0_0_1_n_n.rhsIdx_val_of_single rfl j k
theorem rhs_1 (j : S2000x16.Idx) (k : dot_S2000x512_S512x16_S2000x16_1_0_0_1_n_n.contr.Idx) :
    (dot_S2000x512_S512x16_S2000x16_1_0_0_1_n_n.rhsIdx j k (1 : Fin 2)).val = (j (1 : Fin 2)).val := by
  unfold DotDims.rhsIdx
  rw [dif_neg (show ¬(1 : Fin S512x16.rank) ∈ dot_S2000x512_S512x16_S2000x16_1_0_0_1_n_n.rhsBatch by decide), dif_pos (show (1 : Fin S512x16.rank) ∈ dot_S2000x512_S512x16_S2000x16_1_0_0_1_n_n.rhsNonContracting by decide)]
  rfl

/-- The body's result at entry `(p, q)` of its block: row `p` of the left block against column `q` of the right one. The
    narrowing of both operands to the short float format is the identity on the extended reals, and the accumulator is zero. -/
theorem pay_apply (x : Vec Ideal S2000x512 .f32) (w : Vec Ideal S512x16 .f32) (p : Fin 2000) (q : Fin 16) :
    k0_pay1 x w (ix2 p q) = ∑ k : Fin 512, x (ix2 p k) * w (ix2 k q) := by
  unfold k0_pay1
  refine (Cert.PlainProduct.matmul_zero_entry dot_S2000x512_S512x16_S2000x16_1_0_0_1_n_n rfl rfl lhs_0 lhs_1 rhs_0 rhs_1
    (truncf .bf16 x bitsLt_bf16_f32) (truncf .bf16 w bitsLt_bf16_f32) p q).trans ?_
  rfl

/-- Where the three windows' blocks sit at grid point `t`: the left operand and the result at block row `t`, the right
    operand at its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays the pass found. -/
theorem flushed_eq (c : Dev nD) (t : Fin cfg0.N) :
    (dat0 V c).flushed 2 t = ((cfg0.win 2).blk t).view.read (Elt Ideal) (Cert.Spec.prod (V c main_arg0) (V c main_arg2)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x16) hz]
  have hN : cfg0.N = 50 := N_0
  have ht : t.val < 50 := hN ▸ t.isLt
  obtain ⟨e0, e1, e2, e3, e4, e5⟩ := idx_facts t
  funext j
  obtain ⟨p, q, rfl⟩ : ∃ (p : Fin 2000) (q : Fin 16), j = ix2 p q := ⟨j 0, j 1, eq_ix2 j⟩
  have hp : p.val < 2000 := p.isLt
  have hq : q.val < 16 := q.isLt
  show k0_pay1 (iblk0 V c 0 t) (iblk0 V c 1 t) (ix2 p q)
    = Cert.Spec.prod (V c main_arg0) (V c main_arg2) (((cfg0.win 2).blk t).view.emb (ix2 p q))
  refine (pay_apply (iblk0 V c 0 t) (iblk0 V c 1 t) p q).trans ?_
  have ha : ∀ k : Fin 512, ((cfg0.win 0).blk t).view.emb (ix2 p k) = (ix2 (⟨t.val * 2000 + p.val, by omega⟩ : Fin 100000) k : S100000x512.Idx) := by
    intro k
    funext a; apply Fin.ext
    match a with
    | ⟨0, _⟩ => show win0_0.index t (0 : Fin 2) * 2000 + 1 * p.val = t.val * 2000 + p.val; omega
    | ⟨1, _⟩ => show win0_0.index t (1 : Fin 2) * 512 + 1 * k.val = k.val; omega
  have hb : ∀ k : Fin 512, ((cfg0.win 1).blk t).view.emb (ix2 k q) = (ix2 k q : S512x16.Idx) := by
    intro k
    funext a; apply Fin.ext
    match a with
    | ⟨0, _⟩ => show win0_1.index t (0 : Fin 2) * 512 + 1 * k.val = k.val; omega
    | ⟨1, _⟩ => show win0_1.index t (1 : Fin 2) * 16 + 1 * q.val = q.val; omega
  have ho : ((cfg0.win 2).blk t).view.emb (ix2 p q) = (ix2 (⟨t.val * 2000 + p.val, by omega⟩ : Fin 100000) q : S100000x16.Idx) := by
    funext a; apply Fin.ext
    match a with
    | ⟨0, _⟩ => show win0_2.index t (0 : Fin 2) * 2000 + 1 * p.val = t.val * 2000 + p.val; omega
    | ⟨1, _⟩ => show win0_2.index t (1 : Fin 2) * 16 + 1 * q.val = q.val; omega
  let A : FVec Ideal S100000x512 .f32 := V c main_arg0
  let B : FVec Ideal S512x16 .f32 := V c main_arg2
  show (∑ k : Fin 512, A (((cfg0.win 0).blk t).view.emb (ix2 p k)) * B (((cfg0.win 1).blk t).view.emb (ix2 k q)))
    = Cert.Spec.prod A B (((cfg0.win 2).blk t).view.emb (ix2 p q))
  rw [ho, Cert.Spec.prod_apply]
  exact Finset.sum_congr rfl fun k _ => by rw [ha k, hb k]

/-- An index of the result array is in point `t`'s block iff each coordinate is in the block's range on its axis. -/
theorem mem_blk (t : Fin cfg0.N) (i : S100000x16.Idx) :
    i ∈ ((cfg0.win 2).blk t).view.set ↔ ∀ a : Fin 2, win0_2.index t a * S2000x16.size a ≤ (i a).val ∧ (i a).val < win0_2.index t a * S2000x16.size a + S2000x16.size a := by
  show i ∈ ((View.whole main_v30).slice (win0_2.rect t)).set ↔ _
  rw [View.set_slice_whole, Rect.mem_set_unit]
  exact Iff.rfl

/-- Row `r` of the result is written at the point `r / 2000`: the fifty blocks fill the array. -/
theorem cover (i : S100000x16.Idx) : ∃ t : Fin cfg0.N, (cfg0.win 2).flush t = true ∧ i ∈ ((cfg0.win 2).blk t).view.set := by
  have hN : cfg0.N = 50 := N_0
  have hi0 : (i 0).val < 100000 := (i 0).isLt
  have hi1 : (i 1).val < 16 := (i 1).isLt
  have htl : (i 0).val / 2000 < cfg0.N := by rw [hN]; omega
  obtain ⟨e0, e1, e2, e3, e4, e5⟩ := idx_facts ⟨(i 0).val / 2000, htl⟩
  refine ⟨⟨(i 0).val / 2000, htl⟩, flush0_2 _, ?_⟩
  rw [mem_blk]
  intro a
  match a with
  | ⟨0, _⟩ =>
    show win0_2.index ⟨(i 0).val / 2000, htl⟩ (0 : Fin 2) * 2000 ≤ (i 0).val ∧ (i 0).val < win0_2.index ⟨(i 0).val / 2000, htl⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, htl⟩ (1 : Fin 2) * 16 ≤ (i 1).val ∧ (i 1).val < win0_2.index ⟨(i 0).val / 2000, htl⟩ (1 : Fin 2) * 16 + 16
    rw [e5]; omega

/-- After the pass its result array is the product of the two arrays as the pass found them. -/
theorem final (c : Dev nD) : (dat0 V c).arrAt 2 cfg0.N = Cert.Spec.prod (V c main_arg0) (V c main_arg2) :=
  (dat0 V c).arrAt_eq_of_cover 2 (Cert.Spec.prod (V c main_arg0) (V c main_arg2)) (fun t _ => flushed_eq V c t) (cover)

end Cert.KernelIdeal.Pass0

namespace Cert.KernelIdeal.Pass2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! The product's dimension numbers contract the left operand's second axis with the right operand's first: at the output
    index `j` and the contraction coordinate `k` the left operand is read at `(j 0, k)` and the right at `(k, j 1)`. -/

theorem lhs_0 (j : S10000x7.Idx) (k : dot_S10000x16_S16x7_S10000x7_1_0_0_1_n_n.contr.Idx) :
    (dot_S10000x16_S16x7_S10000x7_1_0_0_1_n_n.lhsIdx j k (0 : Fin 2)).val = (j (0 : Fin 2)).val := by
  unfold DotDims.lhsIdx
  rw [dif_neg (show ¬(0 : Fin S10000x16.rank) ∈ dot_S10000x16_S16x7_S10000x7_1_0_0_1_n_n.lhsBatch by decide), dif_pos (show (0 : Fin S10000x16.rank) ∈ dot_S10000x16_S16x7_S10000x7_1_0_0_1_n_n.lhsNonContracting by decide)]
  rfl
theorem lhs_1 (j : S10000x7.Idx) (k : dot_S10000x16_S16x7_S10000x7_1_0_0_1_n_n.contr.Idx) :
    (dot_S10000x16_S16x7_S10000x7_1_0_0_1_n_n.lhsIdx j k (1 : Fin 2)).val = (k ⟨0, by decide⟩).val :=
  dot_S10000x16_S16x7_S10000x7_1_0_0_1_n_n.lhsIdx_val_of_single rfl j k
theorem rhs_0 (j : S10000x7.Idx) (k : dot_S10000x16_S16x7_S10000x7_1_0_0_1_n_n.contr.Idx) :
    (dot_S10000x16_S16x7_S10000x7_1_0_0_1_n_n.rhsIdx j k (0 : Fin 2)).val = (k ⟨0, by decide⟩).val :=
  dot_S10000x16_S16x7_S10000x7_1_0_0_1_n_n.rhsIdx_val_of_single rfl j k
theorem rhs_1 (j : S10000x7.Idx) (k : dot_S10000x16_S16x7_S10000x7_1_0_0_1_n_n.contr.Idx) :
    (dot_S10000x16_S16x7_S10000x7_1_0_0_1_n_n.rhsIdx j k (1 : Fin 2)).val = (j (1 : Fin 2)).val := by
  unfold DotDims.rhsIdx
  rw [dif_neg (show ¬(1 : Fin S16x7.rank) ∈ dot_S10000x16_S16x7_S10000x7_1_0_0_1_n_n.rhsBatch by decide), dif_pos (show (1 : Fin S16x7.rank) ∈ dot_S10000x16_S16x7_S10000x7_1_0_0_1_n_n.rhsNonContracting by decide)]
  rfl

/-- The body's result at entry `(p, q)` of its block: row `p` of the left block against column `q` of the right one. The
    narrowing of both operands to the short float format is the identity on the extended reals, and the accumulator is zero. -/
theorem pay_apply (x : Vec Ideal S10000x16 .f32) (w : Vec Ideal S16x7 .f32) (p : Fin 10000) (q : Fin 7) :
    k2_pay1 x w (ix2 p q) = ∑ k : Fin 16, x (ix2 p k) * w (ix2 k q) := by
  unfold k2_pay1
  simp only [shapeCast_self]
  refine (Cert.PlainProduct.matmul_zero_entry dot_S10000x16_S16x7_S10000x7_1_0_0_1_n_n rfl rfl lhs_0 lhs_1 rhs_0 rhs_1
    (truncf .bf16 x bitsLt_bf16_f32) (truncf .bf16 w bitsLt_bf16_f32) p q).trans ?_
  rfl

/-- Where the three windows' blocks sit at grid point `t`: the left operand and the result at block row `t`, the right
    operand at its one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the two arrays the pass found. -/
theorem flushed_eq (c : Dev nD) (t : Fin cfg2.N) :
    (dat2 V c).flushed 2 t = ((cfg2.win 2).blk t).view.read (Elt Ideal) (Cert.Spec.prod (V c main_v45) (V c main_arg4)) := by
  show (cfg2.win 2).cut (grid2.coords t) ((dat2 V c).after 2 t) = _
  rw [after2_2]
  unfold out2_2
  rw [View.canon_unit_zero hz]
  simp only [View.ld_unit_zero (S := S10000x16) hz, View.ld_unit_zero (S := S16x7) hz]
  have hN : cfg2.N = 10 := N_2
  have ht : t.val < 10 := hN ▸ t.isLt
  obtain ⟨e0, e1, e2, e3, e4, e5⟩ := idx_facts t
  funext j
  obtain ⟨p, q, rfl⟩ : ∃ (p : Fin 10000) (q : Fin 7), j = ix2 p q := ⟨j 0, j 1, eq_ix2 j⟩
  have hp : p.val < 10000 := p.isLt
  have hq : q.val < 7 := q.isLt
  show k2_pay1 (iblk2 V c 0 t) (iblk2 V c 1 t) (ix2 p q)
    = Cert.Spec.prod (V c main_v45) (V c main_arg4) (((cfg2.win 2).blk t).view.emb (ix2 p q))
  refine (pay_apply (iblk2 V c 0 t) (iblk2 V c 1 t) p q).trans ?_
  have ha : ∀ k : Fin 16, ((cfg2.win 0).blk t).view.emb (ix2 p k) = (ix2 (⟨t.val * 10000 + p.val, by omega⟩ : Fin 100000) k : S100000x16.Idx) := by
    intro k
    funext a; apply Fin.ext
    match a with
    | ⟨0, _⟩ => show win2_0.index t (0 : Fin 2) * 10000 + 1 * p.val = t.val * 10000 + p.val; omega
    | ⟨1, _⟩ => show win2_0.index t (1 : Fin 2) * 16 + 1 * k.val = k.val; omega
  have hb : ∀ k : Fin 16, ((cfg2.win 1).blk t).view.emb (ix2 k q) = (ix2 k q : S16x7.Idx) := by
    intro k
    funext a; apply Fin.ext
    match a with
    | ⟨0, _⟩ => show win2_1.index t (0 : Fin 2) * 16 + 1 * k.val = k.val; omega
    | ⟨1, _⟩ => show win2_1.index t (1 : Fin 2) * 7 + 1 * q.val = q.val; omega
  have ho : ((cfg2.win 2).blk t).view.emb (ix2 p q) = (ix2 (⟨t.val * 10000 + p.val, by omega⟩ : Fin 100000) q : S100000x7.Idx) := by
    funext a; apply Fin.ext
    match a with
    | ⟨0, _⟩ => show win2_2.index t (0 : Fin 2) * 10000 + 1 * p.val = t.val * 10000 + p.val; omega
    | ⟨1, _⟩ => show win2_2.index t (1 : Fin 2) * 7 + 1 * q.val = q.val; omega
  let A : FVec Ideal S100000x16 .f32 := V c main_v45
  let B : FVec Ideal S16x7 .f32 := V c main_arg4
  show (∑ k : Fin 16, A (((cfg2.win 0).blk t).view.emb (ix2 p k)) * B (((cfg2.win 1).blk t).view.emb (ix2 k q)))
    = Cert.Spec.prod A B (((cfg2.win 2).blk t).view.emb (ix2 p q))
  rw [ho, Cert.Spec.prod_apply]
  exact Finset.sum_congr rfl fun k _ => by rw [ha k, hb k]

/-- An index of the result array is in point `t`'s block iff each coordinate is in the block's range on its axis. -/
theorem mem_blk (t : Fin cfg2.N) (i : S100000x7.Idx) :
    i ∈ ((cfg2.win 2).blk t).view.set ↔ ∀ a : Fin 2, win2_2.index t a * S10000x7.size a ≤ (i a).val ∧ (i a).val < win2_2.index t a * S10000x7.size a + S10000x7.size a := by
  show i ∈ ((View.whole main_v46).slice (win2_2.rect t)).set ↔ _
  rw [View.set_slice_whole, Rect.mem_set_unit]
  exact Iff.rfl

/-- Row `r` of the result is written at the point `r / 10000`: the ten blocks fill the array. -/
theorem cover (i : S100000x7.Idx) : ∃ t : Fin cfg2.N, (cfg2.win 2).flush t = true ∧ i ∈ ((cfg2.win 2).blk t).view.set := by
  have hN : cfg2.N = 10 := N_2
  have hi0 : (i 0).val < 100000 := (i 0).isLt
  have hi1 : (i 1).val < 7 := (i 1).isLt
  have htl : (i 0).val / 10000 < cfg2.N := by rw [hN]; omega
  obtain ⟨e0, e1, e2, e3, e4, e5⟩ := idx_facts ⟨(i 0).val / 10000, htl⟩
  refine ⟨⟨(i 0).val / 10000, htl⟩, flush2_2 _, ?_⟩
  rw [mem_blk]
  intro a
  match a with
  | ⟨0, _⟩ =>
    show win2_2.index ⟨(i 0).val / 10000, htl⟩ (0 : Fin 2) * 10000 ≤ (i 0).val ∧ (i 0).val < win2_2.index ⟨(i 0).val / 10000, htl⟩ (0 : Fin 2) * 10000 + 10000
    rw [e4]; show (i 0).val / 10000 * 10000 ≤ (i 0).val ∧ (i 0).val < (i 0).val / 10000 * 10000 + 10000; omega
  | ⟨1, _⟩ =>
    show win2_2.index ⟨(i 0).val / 10000, htl⟩ (1 : Fin 2) * 7 ≤ (i 1).val ∧ (i 1).val < win2_2.index ⟨(i 0).val / 10000, htl⟩ (1 : Fin 2) * 7 + 7
    rw [e5]; omega

/-- After the pass its result array is the product of the two arrays as the pass found them. -/
theorem final (c : Dev nD) : (dat2 V c).arrAt 2 cfg2.N = Cert.Spec.prod (V c main_v45) (V c main_arg4) :=
  (dat2 V c).arrAt_eq_of_cover 2 (Cert.Spec.prod (V c main_v45) (V c main_arg4)) (fun t _ => flushed_eq V c t) (cover)

end Cert.KernelIdeal.Pass2

end
-- ==== Proof.LibColumnLayout.lean ====
/-
  A vector laid out as a column, and a column broadcast across many columns.

  Reading a reshape or a broadcast at an index: an `[a]` array cast to `[a, 1]` holds at (i, 0) its entry i, and an
  `[a, 1]` column broadcast to `[a, b]` holds at (p, c) the column's entry p, whatever the column c. These are the forms a
  sum kept as a column (one number per row) takes when it is added back to a matrix row by row.
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`: the row coordinate is kept
    (or is 0 when there is one row), the unit axis is read at 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.Pass3.lean ====
/-
  The bias-and-log-softmax pass as one function of whole arrays.

  The pass walks the [100000, 7] array in ten blocks of 10000 rows; at block `t` it reads rows `10000·t … 10000·t + 9999`
  of the scores and the one row of the bias, forms `z[r, c] = a[r, c] + b[0, c]` on the block, and writes
  `(z[r, c] - m[r]) - log (∑ c', exp (z[r, c'] - m[r]))`, with `m[r]` the greatest entry of row `r` of `z`, to the same rows
  of its result. Every quantity in that formula is taken along one row, so row `p` of block `t` gets the value the whole
  array gives its row `10000·t + p`; the ten blocks are disjoint and fill the array, so after the pass the result array is
  `Spec.biasLogSoftmax a b` of the two arrays the pass found on entry.
-/
import proofs.«162182_j59244778881669_1_alg».proof.Proof.Gen.KernelIdeal.Frame
import proofs.«162182_j59244778881669_1_alg».proof.Proof.Spec
import proofs.«162182_j59244778881669_1_alg».proof.Proof.LibColumnLayout
import Idealize.ShloMosaic.Lib.Pipeline.Value
import Idealize.ShloMosaic.Lib.ValueIdx
import Idealize.ShloMosaic.Lib.ValueLayout

set_option maxRecDepth 16384

noncomputable section

namespace Cert.KernelIdeal.Pass3

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The log-softmax of a row depends on that row only -/

section Locality

variable {N N' C : ℕ}

/-- Two arrays that agree along a row of each have the same greatest entry on those rows. -/
theorem rowMax_congr (z : FVec Ideal ⟨2, ![N, C]⟩ .f32) (z' : FVec Ideal ⟨2, ![N', C]⟩ .f32) (p : Fin N) (p' : Fin N')
    (h : ∀ c : Fin C, z (ix2 p c) = z' (ix2 p' c)) : Cert.Spec.rowMax z p = Cert.Spec.rowMax z' p' := by
  unfold Cert.Spec.rowMax
  simp only [h]

/-- Two arrays that agree along a row of each have the same log-softmax on those rows. -/
theorem logSoftmax_congr (z : FVec Ideal ⟨2, ![N, C]⟩ .f32) (z' : FVec Ideal ⟨2, ![N', C]⟩ .f32) (p : Fin N) (p' : Fin N')
    (h : ∀ c : Fin C, z (ix2 p c) = z' (ix2 p' c)) (q : Fin C) :
    Cert.Spec.logSoftmax z (ix2 p q) = Cert.Spec.logSoftmax z' (ix2 p' q) := by
  rw [Cert.Spec.logSoftmax_apply, Cert.Spec.logSoftmax_apply, rowMax_congr z z' p p' h]
  simp only [h]

end Locality

/-! ## The two reductions along a row, and a per-row number laid back across the row -/

/-- The maximum taken along the second axis from the word of `-∞`, at row `p`, is that row's greatest entry. -/
theorem red_max (src : FVec Ideal S10000x7 .f32) (h : S10000x7.Reduces [1] S10000) (hφ : FKind.Formats .f32)
    (hacc : (0xFF800000#32 : BitVec FTy.f32.bits) = FKind.maximumf.neutral .f32 hφ) (p : Fin 10000) :
    multiReduction .maximumf [1] S10000 src 0xFF800000#32 h hφ hacc (ix1 p) = Cert.Spec.rowMax src p := by
  refine (Ideal.multiReduction_maximumf_single src _ h hφ hacc (ix1 p)).trans ?_
  have e : ∀ k : Fin 7, h.lift (ix1 p) k = ix2 p k := fun k =>
    funext fun a => Fin.ext (by match a with | ⟨0, _⟩ => rfl | ⟨1, _⟩ => rfl)
  unfold Cert.Spec.rowMax
  show (Finset.univ : Finset (Fin 7)).fold max (Ideal.ofBits .f32 0xFF800000#32) (fun k => src (h.lift (ix1 p) k)) = _
  exact Finset.fold_congr fun k _ => congrArg src (e k)

/-- The sum taken along the second axis, at row `p`, is the sum of that row's entries. -/
theorem red_add (src : FVec Ideal S10000x7 .f32) (h : S10000x7.Reduces [1] S10000) (hφ : FKind.Formats .f32)
    (hacc : (0x00000000#32 : BitVec FTy.f32.bits) = FKind.add.neutral .f32 hφ) (p : Fin 10000) :
    multiReduction .add [1] S10000 src 0x00000000#32 h hφ hacc (ix1 p) = ∑ c : Fin 7, src (ix2 p c) := by
  refine (Ideal.multiReduction_add_single src _ h hφ hacc (ix1 p)).trans ?_
  exact Finset.sum_congr rfl fun k _ =>
    congrArg src (funext fun a => Fin.ext (by match a with | ⟨0, _⟩ => rfl | ⟨1, _⟩ => rfl))

/-- A number per row, laid out as a column and repeated across the seven columns. -/
abbrev col (m : FVec Ideal S10000 .f32) : FVec Ideal S10000x7 .f32 :=
  broadcastTo S10000x7 (shapeCast S10000x1 m shapeCasts_S10000_S10000x1) broadcasts_S10000x1_S10000x7

/-- The logarithm of a number per row, taken on the column and repeated across the seven columns. -/
abbrev logCol (s : FVec Ideal S10000 .f32) : FVec Ideal S10000x7 .f32 :=
  broadcastTo S10000x7 (log (shapeCast S10000x1 s shapeCasts_S10000_S10000x1)) broadcasts_S10000x1_S10000x7

/-- The repeated column reads, at `(p, q)`, the number of row `p`. -/
theorem col_apply (m : FVec Ideal S10000 .f32) (p : Fin 10000) (q : Fin 7) : col m (ix2 p q) = m (ix1 p) :=
  (Cert.ColumnLayout.broadcastTo_a1_ab_apply (shapeCast S10000x1 m shapeCasts_S10000_S10000x1) broadcasts_S10000x1_S10000x7 p q).trans
    (Cert.ColumnLayout.shapeCast_a_a1_apply m shapeCasts_S10000_S10000x1 p (0 : Fin 1))

/-- The repeated column of logarithms reads, at `(p, q)`, the logarithm of the number of row `p`. -/
theorem logCol_apply (s : FVec Ideal S10000 .f32) (p : Fin 10000) (q : Fin 7) : logCol s (ix2 p q) = Ideal.log (s (ix1 p)) :=
  (Cert.ColumnLayout.broadcastTo_a1_ab_apply (log (shapeCast S10000x1 s shapeCasts_S10000_S10000x1)) broadcasts_S10000x1_S10000x7 p q).trans
    (congrArg Ideal.log (Cert.ColumnLayout.shapeCast_a_a1_apply s shapeCasts_S10000_S10000x1 p (0 : Fin 1)))

/-! ## The body -/

/-- The body's first step: the block of scores plus the bias row repeated down the rows is `Spec.addRow` of the two. -/
theorem z_eq (b : Vec Ideal S1x7 .f32) (a : Vec Ideal S10000x7 .f32) :
    addf a (broadcastTo S10000x7 b broadcasts_S1x7_S10000x7) = Cert.Spec.addRow a b := by
  funext j
  obtain ⟨p, q, rfl⟩ : ∃ (p : Fin 10000) (q : Fin 7), j = ix2 p q := ⟨j 0, j 1, eq_ix2 j⟩
  show a (ix2 p q) + broadcastTo S10000x7 b broadcasts_S1x7_S10000x7 (ix2 p q) = _
  rw [broadcastTo_1b_ab_apply]
  rfl

/-- The rest of the body, from the summed block `z` and a column `M` holding each row's greatest entry: subtract the
    column, exponentiate, sum each row, take the logarithm, subtract again. At `(p, q)` this is the log-softmax of `z`. -/
theorem body_eq (z : FVec Ideal S10000x7 .f32) (M : FVec Ideal S10000 .f32) (hM : ∀ p : Fin 10000, M (ix1 p) = Cert.Spec.rowMax z p)
    (h : S10000x7.Reduces [1] S10000) (hφ : FKind.Formats .f32)
    (hadd : (0x00000000#32 : BitVec FTy.f32.bits) = FKind.add.neutral .f32 hφ) (p : Fin 10000) (q : Fin 7) :
    subf (subf z (col M)) (logCol (multiReduction .add [1] S10000 (exp (subf z (col M))) 0x00000000#32 h hφ hadd)) (ix2 p q)
      = Cert.Spec.logSoftmax z (ix2 p q) := by
  have hC : ∀ c : Fin 7, col M (ix2 p c) = Cert.Spec.rowMax z p := fun c => (col_apply M p c).trans (hM p)
  have hE : ∀ c : Fin 7, exp (subf z (col M)) (ix2 p c) = Ideal.exp (z (ix2 p c) - Cert.Spec.rowMax z p) := fun c => by
    show Ideal.exp (z (ix2 p c) - col M (ix2 p c)) = _
    rw [hC c]
  have hS : logCol (multiReduction .add [1] S10000 (exp (subf z (col M))) 0x00000000#32 h hφ hadd) (ix2 p q)
      = Ideal.log (∑ c : Fin 7, Ideal.exp (z (ix2 p c) - Cert.Spec.rowMax z p)) :=
    (logCol_apply _ p q).trans (congrArg Ideal.log ((red_add _ h hφ hadd p).trans (Finset.sum_congr rfl fun c _ => hE c)))
  rw [Cert.Spec.logSoftmax_apply]
  show (z (ix2 p q) - col M (ix2 p q))
      - logCol (multiReduction .add [1] S10000 (exp (subf z (col M))) 0x00000000#32 h hφ hadd) (ix2 p q) = _
  rw [hC q, hS]

/-- The body's result at entry `(p, q)` of its block: the log-softmax of the block of scores plus the bias row. -/
theorem pay_eq (b : Vec Ideal S1x7 .f32) (a : Vec Ideal S10000x7 .f32) (p : Fin 10000) (q : Fin 7) :
    k3_pay1 b a (ix2 p q) = Cert.Spec.logSoftmax (Cert.Spec.addRow a b) (ix2 p q) := by
  unfold k3_pay1
  simp only [shapeCast_self]
  rw [z_eq b a]
  exact body_eq (Cert.Spec.addRow a b) _ (fun p' => red_max (Cert.Spec.addRow a b) _ _ _ p') _ _ _ p q

/-! ## The pass -/

/-- Where the three windows' blocks sit at grid point `t`: the two big windows at block row `t`, the bias at its one block. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of `Spec.biasLogSoftmax` of the two arrays the pass found. -/
theorem flushed_eq (c : Dev nD) (t : Fin cfg3.N) :
    (dat3 V c).flushed 2 t = ((cfg3.win 2).blk t).view.read (Elt Ideal) (Cert.Spec.biasLogSoftmax (V c main_v59) (V c main_v60)) := by
  show (cfg3.win 2).cut (grid3.coords t) ((dat3 V c).after 2 t) = _
  rw [after3_2]
  unfold out3_2
  rw [View.canon_unit_zero hz]
  simp only [View.ld_unit_zero (S := S10000x7) hz, View.ld_unit_zero (S := S1x7) hz]
  have hN : cfg3.N = 10 := N_3
  have ht : t.val < 10 := hN ▸ t.isLt
  obtain ⟨e0, e1, e2, e3, e4, e5⟩ := idx_facts t
  funext j
  obtain ⟨p, q, rfl⟩ : ∃ (p : Fin 10000) (q : Fin 7), j = ix2 p q := ⟨j 0, j 1, eq_ix2 j⟩
  have hp : p.val < 10000 := p.isLt
  have hq : q.val < 7 := q.isLt
  show k3_pay1 (iblk3 V c 1 t) (iblk3 V c 0 t) (ix2 p q)
    = Cert.Spec.biasLogSoftmax (V c main_v59) (V c main_v60) (((cfg3.win 2).blk t).view.emb (ix2 p q))
  refine (pay_eq (iblk3 V c 1 t) (iblk3 V c 0 t) p q).trans ?_
  have ha : ∀ k : Fin 7, ((cfg3.win 0).blk t).view.emb (ix2 p k) = (ix2 (⟨t.val * 10000 + p.val, by omega⟩ : Fin 100000) k : S100000x7.Idx) := by
    intro k
    funext a; apply Fin.ext
    match a with
    | ⟨0, _⟩ => show win3_0.index t (0 : Fin 2) * 10000 + 1 * p.val = t.val * 10000 + p.val; omega
    | ⟨1, _⟩ => show win3_0.index t (1 : Fin 2) * 7 + 1 * k.val = k.val; omega
  have hb : ∀ k : Fin 7, ((cfg3.win 1).blk t).view.emb (ix2 (0 : Fin 1) k) = (ix2 (0 : Fin 1) k : S1x7.Idx) := by
    intro k
    funext a; apply Fin.ext
    match a with
    | ⟨0, _⟩ => show win3_1.index t (0 : Fin 2) * 1 + 1 * 0 = 0; omega
    | ⟨1, _⟩ => show win3_1.index t (1 : Fin 2) * 7 + 1 * k.val = k.val; omega
  have ho : ((cfg3.win 2).blk t).view.emb (ix2 p q) = (ix2 (⟨t.val * 10000 + p.val, by omega⟩ : Fin 100000) q : S100000x7.Idx) := by
    funext a; apply Fin.ext
    match a with
    | ⟨0, _⟩ => show win3_2.index t (0 : Fin 2) * 10000 + 1 * p.val = t.val * 10000 + p.val; omega
    | ⟨1, _⟩ => show win3_2.index t (1 : Fin 2) * 7 + 1 * q.val = q.val; omega
  let A : FVec Ideal S100000x7 .f32 := V c main_v59
  let B : FVec Ideal S1x7 .f32 := V c main_v60
  show Cert.Spec.logSoftmax (Cert.Spec.addRow (iblk3 V c 0 t) (iblk3 V c 1 t)) (ix2 p q)
    = Cert.Spec.logSoftmax (Cert.Spec.addRow A B) (((cfg3.win 2).blk t).view.emb (ix2 p q))
  rw [ho]
  refine logSoftmax_congr _ _ p (⟨t.val * 10000 + p.val, by omega⟩ : Fin 100000) (fun k => ?_) q
  show A (((cfg3.win 0).blk t).view.emb (ix2 p k)) + B (((cfg3.win 1).blk t).view.emb (ix2 (0 : Fin 1) k))
    = Cert.Spec.addRow A B (ix2 (⟨t.val * 10000 + p.val, by omega⟩ : Fin 100000) k)
  rw [ha k, hb k, Cert.Spec.addRow_apply]

/-- An index of the result array is in point `t`'s block iff each coordinate is in the block's range on its axis. -/
theorem mem_blk (t : Fin cfg3.N) (i : S100000x7.Idx) :
    i ∈ ((cfg3.win 2).blk t).view.set ↔ ∀ a : Fin 2, win3_2.index t a * S10000x7.size a ≤ (i a).val ∧ (i a).val < win3_2.index t a * S10000x7.size a + S10000x7.size a := by
  show i ∈ ((View.whole main_v61).slice (win3_2.rect t)).set ↔ _
  rw [View.set_slice_whole, Rect.mem_set_unit]
  exact Iff.rfl

/-- Row `r` of the result is written at the point `r / 10000`: the ten blocks fill the array. -/
theorem cover (i : S100000x7.Idx) : ∃ t : Fin cfg3.N, (cfg3.win 2).flush t = true ∧ i ∈ ((cfg3.win 2).blk t).view.set := by
  have hN : cfg3.N = 10 := N_3
  have hi0 : (i 0).val < 100000 := (i 0).isLt
  have hi1 : (i 1).val < 7 := (i 1).isLt
  have htl : (i 0).val / 10000 < cfg3.N := by rw [hN]; omega
  obtain ⟨e0, e1, e2, e3, e4, e5⟩ := idx_facts ⟨(i 0).val / 10000, htl⟩
  refine ⟨⟨(i 0).val / 10000, htl⟩, flush3_2 _, ?_⟩
  rw [mem_blk]
  intro a
  match a with
  | ⟨0, _⟩ =>
    show win3_2.index ⟨(i 0).val / 10000, htl⟩ (0 : Fin 2) * 10000 ≤ (i 0).val ∧ (i 0).val < win3_2.index ⟨(i 0).val / 10000, htl⟩ (0 : Fin 2) * 10000 + 10000
    rw [e4]; show (i 0).val / 10000 * 10000 ≤ (i 0).val ∧ (i 0).val < (i 0).val / 10000 * 10000 + 10000; omega
  | ⟨1, _⟩ =>
    show win3_2.index ⟨(i 0).val / 10000, htl⟩ (1 : Fin 2) * 7 ≤ (i 1).val ∧ (i 1).val < win3_2.index ⟨(i 0).val / 10000, htl⟩ (1 : Fin 2) * 7 + 7
    rw [e5]; omega

/-- After the pass its result array is `Spec.biasLogSoftmax` of the scores and the bias row as the pass found them. -/
theorem final (c : Dev nD) : (dat3 V c).arrAt 2 cfg3.N = Cert.Spec.biasLogSoftmax (V c main_v59) (V c main_v60) :=
  (dat3 V c).arrAt_eq_of_cover 2 (Cert.Spec.biasLogSoftmax (V c main_v59) (V c main_v60)) (fun t _ => flushed_eq V c t) (cover)

end Cert.KernelIdeal.Pass3

end
-- ==== Proof.RefStages.lean ====
/-
  The reference program's four dense stages, each equal to its whole-array specification on the extended reals.

  * The first product: entry `(p, c)` of the stage is `∑ k, x0[p, k] · x2[k, c]`.
  * The rectifier stage: the aggregated array plus the bias row (the bias vector read as a `[1, 16]` row), then `max · 0`.
  * The second product: the rectified array times the second weight matrix.
  * The log-softmax stage: the aggregated array plus the bias row, then, in every row, the entry minus the row's greatest
    entry, minus the logarithm of the row's sum of exponentials of those differences.

  Every stage is read entry by entry from the generated "read at an index" lemmas; what is left is to identify the
  generated index functions with the plain coordinates `(p, c)`, `(p, k)`, `(k, c)`, `(0, c)`.
-/
import proofs.«162182_j59244778881669_1_alg».proof.Proof.ReadP
import proofs.«162182_j59244778881669_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

namespace Cert.ReferenceIdeal.RefStages

open Cert.ReferenceIdeal Cert.ReferenceIdeal.Gen Cert.ReferenceIdeal.ReadP Idealize.ShloMosaic Idealize.ShloMosaic.TcCoe Idealize.ShloMosaic.ValueIdx

/-! ## The two products -/

/-- The first product: entry `(p, c)` is `∑ k, x0[p, k] · x2[k, c]`. -/
theorem v30_eq (x0 : (⟨S100000x512, .f32⟩ : BufTy).Contents (Elt Ideal)) (x2 : (⟨S512x16, .f32⟩ : BufTy).Contents (Elt Ideal)) :
    val_main_v30 (F := Ideal) x0 x2 = Cert.Spec.prod x0 x2 := by
  funext i
  obtain ⟨p, q, rfl⟩ : ∃ (p : Fin 100000) (q : Fin 16), i = ix2 p q := ⟨i 0, i 1, eq_ix2 i⟩
  refine (val_main_v30_apply x0 x2 (ix2 p q)).trans ?_
  refine Eq.trans ?_ (Cert.Spec.prod_apply x0 x2 p q).symm
  refine Finset.sum_congr rfl fun k _ => ?_
  have el : lidx_main_v30 (ix2 p q) k = ix2 p k :=
    funext fun a => Fin.ext (by match a with | ⟨0, _⟩ => rfl | ⟨1, _⟩ => rfl)
  have er : ridx_main_v30 (ix2 p q) k = ix2 k q :=
    funext fun a => Fin.ext (by match a with | ⟨0, _⟩ => rfl | ⟨1, _⟩ => rfl)
  rw [el, er]

/-- The second product: entry `(p, c)` is `∑ k, r[p, k] · x4[k, c]` with `r` the rectified array. -/
theorem v48_eq (x0 : (⟨S100000x512, .f32⟩ : BufTy).Contents (Elt Ideal)) (x1 : (⟨S2x3200000, .i32⟩ : BufTy).Contents (Elt Ideal))
    (x2 : (⟨S512x16, .f32⟩ : BufTy).Contents (Elt Ideal)) (x3 : (⟨S16, .f32⟩ : BufTy).Contents (Elt Ideal))
    (x4 : (⟨S16x7, .f32⟩ : BufTy).Contents (Elt Ideal)) :
    val_main_v48 (F := Ideal) x0 x1 x2 x3 x4 = Cert.Spec.prod (val_main_v47 (F := Ideal) x0 x1 x2 x3) x4 := by
  funext i
  obtain ⟨p, q, rfl⟩ : ∃ (p : Fin 100000) (q : Fin 7), i = ix2 p q := ⟨i 0, i 1, eq_ix2 i⟩
  refine (val_main_v48_apply x0 x1 x2 x3 x4 (ix2 p q)).trans ?_
  refine Eq.trans ?_ (Cert.Spec.prod_apply (val_main_v47 (F := Ideal) x0 x1 x2 x3) x4 p q).symm
  refine Finset.sum_congr rfl fun k _ => ?_
  have el : lidx_main_v48 (ix2 p q) k = ix2 p k :=
    funext fun a => Fin.ext (by match a with | ⟨0, _⟩ => rfl | ⟨1, _⟩ => rfl)
  have er : ridx_main_v48 (ix2 p q) k = ix2 k q :=
    funext fun a => Fin.ext (by match a with | ⟨0, _⟩ => rfl | ⟨1, _⟩ => rfl)
  rw [el, er]

/-! ## Bias and rectifier -/

/-- The rectifier stage: entry `(p, c)` is `max (a[p, c] + x3[c]) 0`, the bias vector read as a `[1, 16]` row at `(0, c)`. -/
theorem v47_eq (x0 : (⟨S100000x512, .f32⟩ : BufTy).Contents (Elt Ideal)) (x1 : (⟨S2x3200000, .i32⟩ : BufTy).Contents (Elt Ideal))
    (x2 : (⟨S512x16, .f32⟩ : BufTy).Contents (Elt Ideal)) (x3 : (⟨S16, .f32⟩ : BufTy).Contents (Elt Ideal))
    (h : S16.ShapeCasts S1x16) :
    val_main_v47 (F := Ideal) x0 x1 x2 x3
      = Cert.Spec.biasRelu (val_main_v43 (F := Ideal) x0 x1 x2) (shapeCast S1x16 x3 h) := by
  funext i
  obtain ⟨p, q, rfl⟩ : ∃ (p : Fin 100000) (q : Fin 16), i = ix2 p q := ⟨i 0, i 1, eq_ix2 i⟩
  rw [val_main_v47_apply, val_main_v46_apply, val_main_v45_apply, val_main_v44_apply, val_main_call1_v0_apply,
    val_main_call1_cst_apply]
  have e : idx_main_v44 (idx_main_v45 (ix2 p q)) = ix1 q :=
    funext fun a => Fin.ext (by match a with | ⟨0, _⟩ => rfl)
  rw [e, Cert.Spec.biasRelu_apply, shapeCast_a_1a_apply x3 h (0 : Fin 1) q]
  simp only [Ideal.maximumf_def, Ideal.addf_def, Ideal.ofBits_def]

/-! ## Bias and log-softmax -/

/-- The reduced index `p` with column `k` put back is `(p, k)`. -/
private theorem lift_col {m n : Nat} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- The reference's `max`-reduce of a `[100000, 7]` array over its columns, at row `p`: the fold of `max` over the row's entries
    from the value of the start word. -/
private theorem fold_row (z : FVec Ideal S100000x7 .f32) (hr : S100000x7.Reduces [1] S100000) (p : Fin 100000) :
    Host.reduce (FloatOps.maximumf (F := Ideal) (φ := .f32)) z (val_main_call2_cst (F := Ideal))
        reducesTo_S100000x7_S100000_d1 h_S_ (ix1 p)
      = Finset.fold max (Ideal.ofBits .f32 0xFF800000#32) (fun k : Fin 7 => z (ix2 p k)) (Finset.univ : Finset (Fin 7)) := by
  have hf : (z ∘ hr.lift (ix1 p)) = fun k : Fin 7 => z (ix2 p k) := funext fun k => congrArg z (lift_col hr p k)
  refine (Host.reduce_eq_fold_single (α := Ideal .f32) FloatOps.maximumf z
    (val_main_call2_cst (F := Ideal) : FVec Ideal S_ .f32) reducesTo_S100000x7_S100000_d1 hr h_S_ (ix1 p)).trans ?_
  exact congrArg (fun f => Finset.fold max (Ideal.ofBits .f32 0xFF800000#32) f (Finset.univ : Finset (Fin 7))) hf

section LogSoftmax

variable (x0 : (⟨S100000x512, .f32⟩ : BufTy).Contents (Elt Ideal)) (x1 : (⟨S2x3200000, .i32⟩ : BufTy).Contents (Elt Ideal))
  (x2 : (⟨S512x16, .f32⟩ : BufTy).Contents (Elt Ideal)) (x3 : (⟨S16, .f32⟩ : BufTy).Contents (Elt Ideal))
  (x4 : (⟨S16x7, .f32⟩ : BufTy).Contents (Elt Ideal)) (x5 : (⟨S7, .f32⟩ : BufTy).Contents (Elt Ideal))

/-- The biased array: entry `(p, c)` is `a[p, c] + x5[c]`, the bias vector read as a `[1, 7]` row at `(0, c)`. -/
theorem v64_eq (h : S7.ShapeCasts S1x7) :
    val_main_v64 (F := Ideal) x0 x1 x2 x3 x4 x5
      = Cert.Spec.addRow (val_main_v61 (F := Ideal) x0 x1 x2 x3 x4) (shapeCast S1x7 x5 h) := by
  funext i
  obtain ⟨p, q, rfl⟩ : ∃ (p : Fin 100000) (q : Fin 7), i = ix2 p q := ⟨i 0, i 1, eq_ix2 i⟩
  rw [val_main_v64_apply, val_main_v63_apply, val_main_v62_apply]
  have e : idx_main_v62 (idx_main_v63 (ix2 p q)) = ix1 q :=
    funext fun a => Fin.ext (by match a with | ⟨0, _⟩ => rfl)
  rw [e, Cert.Spec.addRow_apply, shapeCast_a_1a_apply x5 h (0 : Fin 1) q]
  simp only [Ideal.addf_def]

/-- The row's greatest entry as the reference computes it: the fold of `max` over the row from the word of `-∞`, then `max`
    with that same word once more, which changes nothing. -/
theorem rowMax_read (p : Fin 100000) :
    val_main_call2_v2 (F := Ideal) x0 x1 x2 x3 x4 x5 (ix1 p)
      = Cert.Spec.rowMax (val_main_v64 (F := Ideal) x0 x1 x2 x3 x4 x5) p := by
  rw [val_main_call2_v2_apply, val_main_call2_v1_apply, val_main_call2_cst_0_apply]
  unfold val_main_call2_v0
  rw [fold_row (val_main_v64 (F := Ideal) x0 x1 x2 x3 x4 x5) (by decide) p]
  simp only [Ideal.maximumf_def, Ideal.ofBits_def]
  exact Cert.Spec.max_base_fold _ _ _

/-- The shifted array: entry `(p, c)` is the biased entry minus its row's greatest entry. -/
theorem v5_read (p : Fin 100000) (c : Fin 7) :
    val_main_call2_v5 (F := Ideal) x0 x1 x2 x3 x4 x5 (ix2 p c)
      = val_main_v64 (F := Ideal) x0 x1 x2 x3 x4 x5 (ix2 p c)
        - Cert.Spec.rowMax (val_main_v64 (F := Ideal) x0 x1 x2 x3 x4 x5) p := by
  rw [val_main_call2_v5_apply, val_main_call2_v4_apply, val_main_call2_v3_apply]
  have e : idx_main_call2_v3 (idx_main_call2_v4 (ix2 p c)) = ix1 p :=
    funext fun a => Fin.ext (by match a with | ⟨0, _⟩ => rfl)
  rw [e, rowMax_read x0 x1 x2 x3 x4 x5 p]
  simp only [Ideal.subf_def]

end LogSoftmax

/-- The log-softmax stage: with `z[p, c] = a[p, c] + x5[c]` and `m` the greatest entry of row `p`, entry `(p, c)` is
    `(z[p, c] - m) - log (∑ c', exp (z[p, c'] - m))`. -/
theorem v65_eq (x0 : (⟨S100000x512, .f32⟩ : BufTy).Contents (Elt Ideal)) (x1 : (⟨S2x3200000, .i32⟩ : BufTy).Contents (Elt Ideal))
    (x2 : (⟨S512x16, .f32⟩ : BufTy).Contents (Elt Ideal)) (x3 : (⟨S16, .f32⟩ : BufTy).Contents (Elt Ideal))
    (x4 : (⟨S16x7, .f32⟩ : BufTy).Contents (Elt Ideal)) (x5 : (⟨S7, .f32⟩ : BufTy).Contents (Elt Ideal))
    (h : S7.ShapeCasts S1x7) :
    val_main_v65 (F := Ideal) x0 x1 x2 x3 x4 x5
      = Cert.Spec.biasLogSoftmax (val_main_v61 (F := Ideal) x0 x1 x2 x3 x4) (shapeCast S1x7 x5 h) := by
  funext i
  obtain ⟨p, q, rfl⟩ : ∃ (p : Fin 100000) (q : Fin 7), i = ix2 p q := ⟨i 0, i 1, eq_ix2 i⟩
  refine Eq.trans ?_ (congrArg (fun z : FVec Ideal ⟨2, ![100000, 7]⟩ .f32 => Cert.Spec.logSoftmax z (ix2 p q))
    (v64_eq x0 x1 x2 x3 x4 x5 h))
  rw [Cert.Spec.logSoftmax_apply, val_main_v65_apply, val_main_call2_v10_apply, val_main_call2_v9_apply,
    val_main_call2_v8_apply]
  have e : idx_main_call2_v8 (idx_main_call2_v10 (ix2 p q)) = ix1 p :=
    funext fun a => Fin.ext (by match a with | ⟨0, _⟩ => rfl)
  rw [e, val_main_call2_v7_apply, val_main_call2_cst_1_apply, v5_read x0 x1 x2 x3 x4 x5 p q]
  have hs : ∀ k : Fin 7, val_main_call2_v6 (F := Ideal) x0 x1 x2 x3 x4 x5 (idx_main_call2_v7 (ix1 p) k)
      = Ideal.exp (val_main_v64 (F := Ideal) x0 x1 x2 x3 x4 x5 (ix2 p k)
          - Cert.Spec.rowMax (val_main_v64 (F := Ideal) x0 x1 x2 x3 x4 x5) p) := by
    intro k
    have ek : idx_main_call2_v7 (ix1 p) k = ix2 p k :=
      funext fun a => Fin.ext (by match a with | ⟨0, _⟩ => rfl | ⟨1, _⟩ => rfl)
    rw [ek, val_main_call2_v6_apply, v5_read x0 x1 x2 x3 x4 x5 p k]
    simp only [Ideal.hostUnary_exp_def]
  simp only [hs, Ideal.subf_def, Ideal.hostUnary_log_def, Ideal.ofBits_def, Ideal.ofBits_zero_f32, zero_add]

end Cert.ReferenceIdeal.RefStages

end
-- ==== Proof.Bridge.lean ====
/-
  The idealized kernel's result is the reference's last stage function of the arguments.

  Boundary by boundary through the program: the first matrix product leaves `x · W1`; the host stretch after it gathers the
  rows at the sources, scales them by the per-edge weights and sums them at the targets — the reference's own operations on
  the same arrays, so its stage function; the bias-and-rectifier pass leaves `max (· + b1) 0`, the reference's
  `relu (· + b1)`; the second matrix product leaves `· W2`; the same host stretch again; and the bias-and-log-softmax pass
  leaves the reference's `log_softmax (· + b2)`. Each kernel region contributes its whole-array function, each host
  stretch is read once over the arrays it finds, and the arrays an earlier stretch computed from the edge list alone are
  carried along unopened.
-/
import proofs.«162182_j59244778881669_1_alg».proof.Proof.WalkGraph
import proofs.«162182_j59244778881669_1_alg».proof.Proof.WalkHost
import proofs.«162182_j59244778881669_1_alg».proof.Proof.WalkKeep
import proofs.«162182_j59244778881669_1_alg».proof.Proof.Pass1
import proofs.«162182_j59244778881669_1_alg».proof.Proof.PassProduct
import proofs.«162182_j59244778881669_1_alg».proof.Proof.Pass3
import proofs.«162182_j59244778881669_1_alg».proof.Proof.RefStages

set_option maxRecDepth 16384

noncomputable section

namespace Cert.KernelIdeal.Bridge

open Cert.KernelIdeal Cert.KernelIdeal.Gen Cert.ReferenceIdeal.ReadP
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- After the first matrix product: `x · W1`, the reference's product stage. -/
theorem W4_v30 : W4 m ρ c (Proc.devRef .tc main_v30) = val_main_v30 (F := Ideal) (m ((c : Thread nD τ).loc main_arg0)) (m ((c : Thread nD τ).loc main_arg2)) := by
  refine (W4_arr m ρ c 2).trans ?_
  rw [Cert.KernelIdeal.Pass0.final (V3 m ρ) c, Cert.ReferenceIdeal.RefStages.v30_eq]
  show Cert.Spec.prod (W3 m ρ c (Proc.devRef .tc main_arg0)) (W3 m ρ c (Proc.devRef .tc main_arg2)) = _
  rw [Cert.KernelIdeal.Walk.W3_arg0, Cert.KernelIdeal.Walk.W3_arg2]

/-- After the first gather / scale / scatter-add: the reference's summed messages. -/
theorem W5_v43 : W5 m ρ c (Proc.devRef .tc main_v43) = val_main_v43 (F := Ideal) (m ((c : Thread nD τ).loc main_arg0)) (m ((c : Thread nD τ).loc main_arg1)) (m ((c : Thread nD τ).loc main_arg2)) :=
  Cert.KernelIdeal.Walk.W5_v43_of m ρ c _ _ _ (W4_v30 m ρ c)
    ((W4_of_ne m ρ c main_v3 (by decide)).trans (Cert.KernelIdeal.Walk.W3_v3 m ρ c))
    ((W4_of_ne m ρ c main_v6 (by decide)).trans (Cert.KernelIdeal.Walk.W3_v6 m ρ c))
    ((W4_of_ne m ρ c main_v29 (by decide)).trans (Cert.KernelIdeal.Walk.W3_v29 m ρ c))

/-- The first bias as a one-row matrix. -/
theorem W5_v44 : W5 m ρ c (Proc.devRef .tc main_v44) = shapeCast S1x16 (m ((c : Thread nD τ).loc main_arg3)) shapeCasts_S16_S1x16 :=
  Cert.KernelIdeal.Walk.W5_v44_of m ρ c _ ((W4_of_ne m ρ c main_arg3 (by decide)).trans (Cert.KernelIdeal.Walk.W3_arg3 m ρ c))

/-- After the bias-and-rectifier pass: the reference's rectified first-layer output. -/
theorem W6_v45 : W6 m ρ c (Proc.devRef .tc main_v45) = val_main_v47 (F := Ideal) (m ((c : Thread nD τ).loc main_arg0)) (m ((c : Thread nD τ).loc main_arg1)) (m ((c : Thread nD τ).loc main_arg2)) (m ((c : Thread nD τ).loc main_arg3)) := by
  refine (W6_arr m ρ c 2).trans ?_
  rw [Cert.KernelIdeal.Pass1.final (V5 m ρ) c, Cert.ReferenceIdeal.RefStages.v47_eq _ _ _ _ shapeCasts_S16_S1x16]
  show Cert.Spec.biasRelu (W5 m ρ c (Proc.devRef .tc main_v43)) (W5 m ρ c (Proc.devRef .tc main_v44)) = _
  rw [W5_v43, W5_v44]

/-- After the second matrix product: the reference's second product stage. -/
theorem W7_v46 : W7 m ρ c (Proc.devRef .tc main_v46) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ?_
  rw [Cert.KernelIdeal.Pass2.final (V6 m ρ) c, Cert.ReferenceIdeal.RefStages.v48_eq]
  show Cert.Spec.prod (W6 m ρ c (Proc.devRef .tc main_v45)) (W6 m ρ c (Proc.devRef .tc main_arg4)) = _
  rw [W6_v45, (Cert.KernelIdeal.Keep.W6_main_arg4 m ρ c).trans (Cert.KernelIdeal.Walk.W3_arg4 m ρ c)]

/-- After the second gather / scale / scatter-add: the reference's summed messages of the second layer. -/
theorem W8_v59 : W8 m ρ c (Proc.devRef .tc main_v59) = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  Cert.KernelIdeal.Walk.W8_v59_of m ρ c _ _ _ _ _ (W7_v46 m ρ c)
    ((Cert.KernelIdeal.Keep.W7_main_v3 m ρ c).trans (Cert.KernelIdeal.Walk.W3_v3 m ρ c))
    ((Cert.KernelIdeal.Keep.W7_main_v6 m ρ c).trans (Cert.KernelIdeal.Walk.W3_v6 m ρ c))
    ((Cert.KernelIdeal.Keep.W7_main_v29 m ρ c).trans (Cert.KernelIdeal.Walk.W3_v29 m ρ c))

/-- The second bias as a one-row matrix. -/
theorem W8_v60 : W8 m ρ c (Proc.devRef .tc main_v60) = shapeCast S1x7 (m ((c : Thread nD τ).loc main_arg5)) shapeCasts_S7_S1x7 :=
  Cert.KernelIdeal.Walk.W8_v60_of m ρ c _ ((Cert.KernelIdeal.Keep.W7_main_arg5 m ρ c).trans (Cert.KernelIdeal.Walk.W3_arg5 m ρ c))

/-- THE RESULT: after the bias-and-log-softmax pass the result buffer holds the reference's last stage function of the
    six arguments. -/
theorem result_eq : W9 m ρ c (Proc.devRef .tc main_v61) = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ?_
  rw [Cert.KernelIdeal.Pass3.final (V8 m ρ) c, Cert.ReferenceIdeal.RefStages.v65_eq _ _ _ _ _ _ shapeCasts_S7_S1x7]
  show Cert.Spec.biasLogSoftmax (W8 m ρ c (Proc.devRef .tc main_v59)) (W8 m ρ c (Proc.devRef .tc main_v60)) = _
  rw [W8_v59, W8_v60]

end Cert.KernelIdeal.Bridge

end
-- ==== Proof.LibFoldSplit.lean ====
/-
  Two general facts about a straight line of host operations, for reading such a line back a stretch at a time.

  * `after_append`, `after_take_drop`: the contents after a list of operations is the contents after its tail from the
    contents after its head — so a long line can be cut at any position, the first part read once, and the second part read
    over the first part's buffers as opaque arrays.
  * `ofBuf_toBuf`: an operation of an outlined function is stated over typed references, whose contents are moved to the
    buffer's own type and back along the reference's type equation; a value moved there and back is the value. Unlike a
    rewrite that must recognise each move as the identity, this cancels the pair as it stands, whatever the buffer's
    position in the signature.
-/
import Idealize.ShloMosaic.Lib.StableHlo.Run

noncomputable section

namespace Cert.FoldSplit

open Idealize.ShloMosaic Idealize.ShloMosaic.StableHlo

variable {τ : Topo} {sig : RefSig} {Val : EltTy → Type}

/-- The contents after two lists of operations run one after the other: the second list's, from the first's. -/
theorem after_append (l1 l2 : List (HloOp τ sig Val)) (V : Valuation τ sig Val) :
    after (l1 ++ l2) V = after l2 (after l1 V) := by
  induction l1 generalizing V with
  | nil => rfl
  | cons op l ih => exact ih _

/-- A list of operations cut at position `n`: its first `n` operations, then the rest from what they leave. -/
theorem after_take_drop (n : ℕ) (l : List (HloOp τ sig Val)) (V : Valuation τ sig Val) :
    after l V = after (l.drop n) (after (l.take n) V) :=
  (congrArg (fun k => after k V) (List.take_append_drop n l).symm).trans (after_append _ _ _)

/-- Contents moved to a typed reference's own buffer type and back are the contents. -/
theorem ofBuf_toBuf {T : BufTy} (x : TRef sig T) (v : T.Contents Val) : x.ofBuf (x.toBuf v) = v := by
  obtain ⟨r, h, h1, h2⟩ := x
  subst h
  rfl

end Cert.FoldSplit

end
-- ==== Proof.RefGraph.lean ====
/-
  The reference program's run, read back.

  The reference is a straight line of 98 host operations, so every weakly fair execution ends with each buffer at the
  fold of the operations over the launch contents. The fold is read here in three parts. The first 40 operations work on
  the edge list alone: the sources and targets with the self-loops appended, the degrees, their inverse square roots
  and the per-edge weights. The next 23 are the first layer: the matrix product, the gather of its rows at the sources,
  the scaling by the weights, the scatter-add at the targets, the bias and the rectifier. The last 35 are the second
  layer and the log-softmax. Each part's result is the generated stage function of the arguments (`val_<buffer>`); a later
  part meets an earlier part's buffers as opaque arrays named by their stage functions and never opens them. Everything
  here holds for any float instance: nothing is computed, the two sides of every equation are the same operations in the
  same order.
-/
import proofs.«162182_j59244778881669_1_alg».proof.Proof.ReadP
import proofs.«162182_j59244778881669_1_alg».proof.Proof.LibFoldSplit
import Idealize.ShloMosaic.Lib.StableHlo.Run

set_option maxRecDepth 16384

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F] (m : (ℓ : Loc nD τ sig) → Buf (Elt F) ℓ) (c : Dev nD)

/-- The buffers after the first 40 operations: everything computed from the edge list alone. -/
def graph : Valuation τ sig (Elt F) := after (List.take 40 (ops (F := F))) (launchContents m c)

/-- The buffers after the next 23 operations: the first layer, through its rectifier. -/
def layer1 : Valuation τ sig (Elt F) := after (List.take 23 (List.drop 40 (ops (F := F)))) (graph m c)

theorem split : after (ops (F := F)) (launchContents m c) = after (List.drop 23 (List.drop 40 (ops (F := F)))) (layer1 m c) := by
  have h1 : after (ops (F := F)) (launchContents m c) = after (List.drop 40 (ops (F := F))) (graph m c) :=
    (congrArg (fun l => after l (launchContents m c)) (List.take_append_drop 40 (ops (F := F))).symm).trans (Cert.FoldSplit.after_append _ _ _)
  have h2 : after (List.drop 40 (ops (F := F))) (graph m c) = after (List.drop 23 (List.drop 40 (ops (F := F)))) (layer1 m c) :=
    (congrArg (fun l => after l (graph m c)) (List.take_append_drop 23 (List.drop 40 (ops (F := F)))).symm).trans (Cert.FoldSplit.after_append _ _ _)
  exact h1.trans h2

/-! ## The edge-list part -/

set_option maxHeartbeats 8000000 in
/-- The sources with self-loops. -/
theorem graph_v3 : graph m c (Proc.devRef .tc main_v3) = val_main_v3 (F := F) (m ((c.tc : Thread nD τ).loc main_arg1)) := by
  unfold graph
  simp only [ops, List.take_succ_cons, List.take_zero, List.drop_succ_cons, List.drop_zero]
  after_results
  simp only [cast_eq]
  simp only [val_main_v0, val_main_v1, val_main_v2, val_main_v3]
  rfl

set_option maxHeartbeats 8000000 in
/-- The targets with self-loops. -/
theorem graph_v6 : graph m c (Proc.devRef .tc main_v6) = val_main_v6 (F := F) (m ((c.tc : Thread nD τ).loc main_arg1)) := by
  unfold graph
  simp only [ops, List.take_succ_cons, List.take_zero, List.drop_succ_cons, List.drop_zero]
  after_results
  simp only [cast_eq]
  simp only [val_main_v0, val_main_v1, val_main_v2, val_main_v3, val_main_v4, val_main_v5, val_main_v6]
  rfl

set_option maxHeartbeats 16000000 in
/-- The per-edge weights. -/
theorem graph_v29 : graph m c (Proc.devRef .tc main_v29) = val_main_v29 (F := F) (m ((c.tc : Thread nD τ).loc main_arg1)) := by
  unfold graph
  simp only [ops, List.take_succ_cons, List.take_zero, List.drop_succ_cons, List.drop_zero]
  after_results_simp
  simp only [cast_eq]
  simp only [val_main_v0, val_main_v1, val_main_v2, val_main_v3, val_main_v4, val_main_v5, val_main_v6, val_main_cst, val_main_v7, val_main_cst_0, val_main_v8, val_main_v9, val_main_v10, val_main_cst_1, val_main_v11, val_main_v12, val_main_v13, val_main_cst_2, val_main_call0_v0, val_main_call0_v1, val_main_v14, val_main_c, val_main_v15, val_main_v16, val_main_c_3, val_main_v17, val_main_v18, val_main_v19, val_main_v20, val_main_v21, val_main_c_4, val_main_v22, val_main_v23, val_main_c_5, val_main_v24, val_main_v25, val_main_v26, val_main_v27, val_main_v28, val_main_v29]
  rfl

end Cert.ReferenceIdeal.RefRun

end
-- ==== Proof.RefLayer1.lean ====
/-
  The reference program's run, read back: the first layer over the edge-list part.

  The first layer (23 operations) finds the edge-list part's arrays — the sources, the targets, the per-edge weights — and
  the arguments; it ends with the rectified first-layer output, the stage function `val_main_v47` of the arguments. The
  arrays it finds are opaque: they are named by their stage functions, and the layer's own operations are matched, in
  order, with the stage definitions. It writes none of the edge-list arrays nor the last two arguments, so the second
  layer finds those as the first did.
-/
import proofs.«162182_j59244778881669_1_alg».proof.Proof.RefGraph

set_option maxRecDepth 16384

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F] (m : (ℓ : Loc nD τ sig) → Buf (Elt F) ℓ) (c : Dev nD)

/-! ## The arguments at the end of the edge-list part -/

/-- Argument 0 is as launched: no operation writes it. -/
theorem graph_arg0 : graph m c (Proc.devRef .tc main_arg0) = m ((c.tc : Thread nD τ).loc main_arg0) := by
  unfold graph
  simp only [ops, List.take_succ_cons, List.take_zero, List.drop_succ_cons, List.drop_zero]
  after_results

/-- Argument 2 is as launched: no operation writes it. -/
theorem graph_arg2 : graph m c (Proc.devRef .tc main_arg2) = m ((c.tc : Thread nD τ).loc main_arg2) := by
  unfold graph
  simp only [ops, List.take_succ_cons, List.take_zero, List.drop_succ_cons, List.drop_zero]
  after_results

/-- Argument 3 is as launched: no operation writes it. -/
theorem graph_arg3 : graph m c (Proc.devRef .tc main_arg3) = m ((c.tc : Thread nD τ).loc main_arg3) := by
  unfold graph
  simp only [ops, List.take_succ_cons, List.take_zero, List.drop_succ_cons, List.drop_zero]
  after_results

/-- Argument 4 is as launched: no operation writes it. -/
theorem graph_arg4 : graph m c (Proc.devRef .tc main_arg4) = m ((c.tc : Thread nD τ).loc main_arg4) := by
  unfold graph
  simp only [ops, List.take_succ_cons, List.take_zero, List.drop_succ_cons, List.drop_zero]
  after_results

/-- Argument 5 is as launched: no operation writes it. -/
theorem graph_arg5 : graph m c (Proc.devRef .tc main_arg5) = m ((c.tc : Thread nD τ).loc main_arg5) := by
  unfold graph
  simp only [ops, List.take_succ_cons, List.take_zero, List.drop_succ_cons, List.drop_zero]
  after_results

/-! ## The first layer -/

set_option maxHeartbeats 16000000 in
/-- The rectified first-layer output. -/
theorem layer1_v47 : layer1 m c (Proc.devRef .tc main_v47) = val_main_v47 (F := F) (m ((c.tc : Thread nD τ).loc main_arg0)) (m ((c.tc : Thread nD τ).loc main_arg1)) (m ((c.tc : Thread nD τ).loc main_arg2)) (m ((c.tc : Thread nD τ).loc main_arg3)) := by
  unfold layer1
  simp only [ops, List.take_succ_cons, List.take_zero, List.drop_succ_cons, List.drop_zero]
  after_results_simp
  simp only [cast_eq]
  rw [graph_v3 m c, graph_v6 m c, graph_v29 m c, graph_arg0 m c, graph_arg2 m c, graph_arg3 m c]
  simp only [val_main_v30, val_main_c_6, val_main_v31, val_main_v32, val_main_c_7, val_main_v33, val_main_v34, val_main_v35, val_main_v36, val_main_v37, val_main_v38, val_main_v39, val_main_v40, val_main_cst_8, val_main_v41, val_main_v42, val_main_v43, val_main_v44, val_main_v45, val_main_v46, val_main_call1_cst, val_main_call1_v0, val_main_v47]

/-! The first layer writes none of the edge-list arrays nor the last two arguments. -/

theorem layer1_keep_main_v3 : layer1 m c (Proc.devRef .tc main_v3) = graph m c (Proc.devRef .tc main_v3) := by
  unfold layer1
  simp only [ops, List.take_succ_cons, List.take_zero, List.drop_succ_cons, List.drop_zero]
  after_results

theorem layer1_keep_main_v6 : layer1 m c (Proc.devRef .tc main_v6) = graph m c (Proc.devRef .tc main_v6) := by
  unfold layer1
  simp only [ops, List.take_succ_cons, List.take_zero, List.drop_succ_cons, List.drop_zero]
  after_results

theorem layer1_keep_main_v29 : layer1 m c (Proc.devRef .tc main_v29) = graph m c (Proc.devRef .tc main_v29) := by
  unfold layer1
  simp only [ops, List.take_succ_cons, List.take_zero, List.drop_succ_cons, List.drop_zero]
  after_results

theorem layer1_keep_main_arg4 : layer1 m c (Proc.devRef .tc main_arg4) = graph m c (Proc.devRef .tc main_arg4) := by
  unfold layer1
  simp only [ops, List.take_succ_cons, List.take_zero, List.drop_succ_cons, List.drop_zero]
  after_results

theorem layer1_keep_main_arg5 : layer1 m c (Proc.devRef .tc main_arg5) = graph m c (Proc.devRef .tc main_arg5) := by
  unfold layer1
  simp only [ops, List.take_succ_cons, List.take_zero, List.drop_succ_cons, List.drop_zero]
  after_results

theorem layer1_v3 : layer1 m c (Proc.devRef .tc main_v3) = val_main_v3 (F := F) (m ((c.tc : Thread nD τ).loc main_arg1)) := (layer1_keep_main_v3 m c).trans (graph_v3 m c)
theorem layer1_v6 : layer1 m c (Proc.devRef .tc main_v6) = val_main_v6 (F := F) (m ((c.tc : Thread nD τ).loc main_arg1)) := (layer1_keep_main_v6 m c).trans (graph_v6 m c)
theorem layer1_v29 : layer1 m c (Proc.devRef .tc main_v29) = val_main_v29 (F := F) (m ((c.tc : Thread nD τ).loc main_arg1)) := (layer1_keep_main_v29 m c).trans (graph_v29 m c)
theorem layer1_arg4 : layer1 m c (Proc.devRef .tc main_arg4) = m ((c.tc : Thread nD τ).loc main_arg4) := (layer1_keep_main_arg4 m c).trans (graph_arg4 m c)
theorem layer1_arg5 : layer1 m c (Proc.devRef .tc main_arg5) = m ((c.tc : Thread nD τ).loc main_arg5) := (layer1_keep_main_arg5 m c).trans (graph_arg5 m c)

end Cert.ReferenceIdeal.RefRun

end
-- ==== Proof.RefRun.lean ====
/-
  The reference program's run, read back: the second layer, the log-softmax, and the run.

  The second layer (20 operations) finds the rectified first-layer output, the three edge-list arrays and the last two
  arguments, and ends with the biased second-layer sums, the stage function `val_main_v64` of the arguments. The
  log-softmax (15 operations) reads that one array — four times over: the row maximum, the shifted entries, their
  exponentials' sum, and the entries again — so it is read with the array opaque, and ends with `val_main_v65`. Then the
  run: every weakly fair execution of the reference ends with its result at `val_main_v65` of the arguments and the
  arguments unchanged.
-/
import proofs.«162182_j59244778881669_1_alg».proof.Proof.RefLayer1

set_option maxRecDepth 16384

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F] (m : (ℓ : Loc nD τ sig) → Buf (Elt F) ℓ) (c : Dev nD)

/-! ## The second layer -/

/-- The buffers after the second layer's 20 operations (through its bias). -/
def layer2 : Valuation τ sig (Elt F) :=
  after (List.take 20 (List.drop 23 (List.drop 40 (ops (F := F))))) (layer1 m c)

theorem split2 : after (ops (F := F)) (launchContents m c)
    = after (List.drop 20 (List.drop 23 (List.drop 40 (ops (F := F))))) (layer2 m c) :=
  (split m c).trans
    ((congrArg (fun l => after l (layer1 m c)) (List.take_append_drop 20 (List.drop 23 (List.drop 40 (ops (F := F))))).symm).trans
      (Cert.FoldSplit.after_append _ _ _))

set_option maxHeartbeats 16000000 in
/-- The biased second-layer sums. -/
theorem layer2_v64 : layer2 m c (Proc.devRef .tc main_v64) = val_main_v64 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold layer2
  simp only [ops, List.take_succ_cons, List.take_zero, List.drop_succ_cons, List.drop_zero]
  after_results_simp
  rw [layer1_v47 m c, layer1_v3 m c, layer1_v6 m c, layer1_v29 m c, layer1_arg4 m c, layer1_arg5 m c]
  simp only [val_main_v48, val_main_c_9, val_main_v49, val_main_v50, val_main_c_10, val_main_v51, val_main_v52, val_main_v53, val_main_v54, val_main_v55, val_main_v56, val_main_v57, val_main_v58, val_main_cst_11, val_main_v59, val_main_v60, val_main_v61, val_main_v62, val_main_v63, val_main_v64]

/-! ## The log-softmax -/

set_option maxHeartbeats 16000000 in
/-- The reference's result is its last stage function of the arguments. -/
theorem result_eq : after (ops (F := F)) (launchContents m c) (Proc.devRef .tc main_v65)
    = val_main_v65 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [split2]
  simp only [ops, List.take_succ_cons, List.take_zero, List.drop_succ_cons, List.drop_zero]
  after_results_simp
  simp only [Cert.FoldSplit.ofBuf_toBuf]
  have h64 : (TRef.of (T := ⟨S100000x7, .f32⟩) main_v64).ofBuf (layer2 m c (Proc.devRef .tc main_v64))
      = val_main_v64 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := (cast_eq _ _).trans (layer2_v64 m c)
  rw [h64]
  refine (cast_eq _ _).trans ?_
  simp only [val_main_call2_cst, val_main_call2_v0, val_main_call2_cst_0, val_main_call2_v1, val_main_call2_v2, val_main_call2_v3, val_main_call2_v4, val_main_call2_v5, val_main_call2_v6, val_main_call2_cst_1, val_main_call2_v7, val_main_call2_v8, val_main_call2_v9, val_main_call2_v10, val_main_v65]

/-! ## The run -/

/-- Argument 0 ends as launched: no operation writes it. -/
theorem arg_eq0 : after (ops (F := F)) (launchContents m c) (Proc.devRef .tc main_arg0) = m ((c.tc : Thread nD τ).loc main_arg0) := by
  after_results_simp <;> rfl

/-- Argument 1 ends as launched: no operation writes it. -/
theorem arg_eq1 : after (ops (F := F)) (launchContents m c) (Proc.devRef .tc main_arg1) = m ((c.tc : Thread nD τ).loc main_arg1) := by
  after_results_simp <;> rfl

/-- Argument 2 ends as launched: no operation writes it. -/
theorem arg_eq2 : after (ops (F := F)) (launchContents m c) (Proc.devRef .tc main_arg2) = m ((c.tc : Thread nD τ).loc main_arg2) := by
  after_results_simp <;> rfl

/-- Argument 3 ends as launched: no operation writes it. -/
theorem arg_eq3 : after (ops (F := F)) (launchContents m c) (Proc.devRef .tc main_arg3) = m ((c.tc : Thread nD τ).loc main_arg3) := by
  after_results_simp <;> rfl

/-- Argument 4 ends as launched: no operation writes it. -/
theorem arg_eq4 : after (ops (F := F)) (launchContents m c) (Proc.devRef .tc main_arg4) = m ((c.tc : Thread nD τ).loc main_arg4) := by
  after_results_simp <;> rfl

/-- Argument 5 ends as launched: no operation writes it. -/
theorem arg_eq5 : after (ops (F := F)) (launchContents m c) (Proc.devRef .tc main_arg5) = m ((c.tc : Thread nD τ).loc main_arg5) := by
  after_results_simp <;> rfl

/-- Every weakly fair execution of the reference terminates, nothing faulting, with its result at the last stage function
    of the arguments and the arguments unchanged. -/
theorem run (ρ : Dev nD → PrngReg) :
    θ_run defs (onTc (τ := τ) (main (F := F))) ⟨m, fun _ => 0, ρ⟩ fun r => ∀ d : Dev nD,
      r.2.mem ((d.tc : Thread nD τ).loc main_v65) = val_main_v65 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5))
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3)
      ∧ r.2.mem ((d.tc : Thread nD τ).loc main_arg4) = m ((d.tc : Thread nD τ).loc main_arg4)
      ∧ r.2.mem ((d.tc : Thread nD τ).loc main_arg5) = m ((d.tc : Thread nD τ).loc main_arg5) :=
  (θ_run defs _ _).mono (fun _ h d => ⟨(h d main_v65).trans (result_eq m d),
      (h d main_arg0).trans (arg_eq0 m d), (h d main_arg1).trans (arg_eq1 m d), (h d main_arg2).trans (arg_eq2 m d),
      (h d main_arg3).trans (arg_eq3 m d), (h d main_arg4).trans (arg_eq4 m d), (h d main_arg5).trans (arg_eq5 m d)⟩)
    (run_seq scopedRefs_eq scopedSems_eq defs main (fun _ => ops) main_eq (fun _ => ops_sub) m ρ)

end Cert.ReferenceIdeal.RefRun

end
-- ==== Proof.lean ====
/-
  A two-layer graph convolution: a Pallas program of four kernel regions against its jnp reference.

  Both programs compute, from node features `x`, an edge list and two weight matrices with biases,
    `log_softmax (A · relu (A · (x · W1) + b1) · W2 + b2)`
  where `A ·` gathers a matrix's rows at the edge sources (self-loops appended), scales each by the edge's weight — the
  product of the inverse square roots of the two ends' degrees — and sums at the edge targets. The Pallas program runs the
  two matrix products, the bias-and-rectifier and the bias-and-log-softmax as kernel regions, block by block over the
  nodes, and everything on the edge list as host operations; the reference is host operations throughout.

  On the extended reals the two agree with no appeal to finiteness: a change of float format is the identity, so the
  kernel's products of bf16-rounded operands are the plain products `∑ k, l[p, k] · r[k, c]` that the host's
  `dot_general` computes; the blocks of each region are disjoint and fill its array, and each block is the restriction
  of one whole-array function; the rectifier is `max · 0` on both sides; the kernel's log-softmax takes the row maximum
  as a fold from `-∞` where the reference takes `max (-∞)` of that same fold; and the edge-list operations are the same
  operations in the same order in both programs.

  The claims: the three frames (the two kernel programs' are generated; the reference's is its run with the result
  dropped), `preserves` (the idealization rewrote nothing), and `algebraic`: both runs end with the reference's last stage
  function of the arguments, `val_main_v65`, in their result buffers.
-/
import proofs.«162182_j59244778881669_1_alg».proof.Defs
import proofs.«162182_j59244778881669_1_alg».proof.Proof.Gen.Kernel
import proofs.«162182_j59244778881669_1_alg».proof.Proof.Gen.Kernel.Frame
import proofs.«162182_j59244778881669_1_alg».proof.Proof.Gen.KernelIdeal
import proofs.«162182_j59244778881669_1_alg».proof.Proof.Gen.KernelIdeal.Frame
import proofs.«162182_j59244778881669_1_alg».proof.Proof.Gen.ReferenceIdeal
import proofs.«162182_j59244778881669_1_alg».proof.Proof.Gen.Pre_finite_inputs
import proofs.«162182_j59244778881669_1_alg».proof.Proof.KernelRun
import proofs.«162182_j59244778881669_1_alg».proof.Proof.Bridge
import proofs.«162182_j59244778881669_1_alg».proof.Proof.RefRun
import Idealize.ShloMosaic.Adequacy
import Idealize.ShloMosaic.Init

noncomputable section

namespace Cert.Proof

open Idealize.ShloMosaic Idealize.SL.Sem

theorem frame_kernel : Cert.frame_Kernel :=
  fun m ρ _ => Cert.Kernel.Gen.frame m ρ

theorem frame_kernelIdeal : Cert.frame_KernelIdeal :=
  fun m ρ _ => Cert.KernelIdeal.Gen.frame m ρ

/-- The reference's frame is its run with the result dropped. -/
theorem frame_referenceIdeal : Cert.frame_ReferenceIdeal :=
  fun m ρ _ => (θ_run Cert.ReferenceIdeal.defs _ _).mono (fun _ h c => (h c).2) (Cert.ReferenceIdeal.RefRun.run (F := Ideal) m ρ)

/-- Both runs end with the reference's last stage function of the arguments in their result buffers. -/
theorem algebraic : Cert.algebraic_KernelIdeal_ReferenceIdeal := by
  intro m ρ m' ρ' _ hagree
  refine ⟨fun c => Cert.ReferenceIdeal.ReadP.val_main_v65 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Bridge.result_eq m ρ c), (h c).2⟩)
      (Cert.KernelIdeal.RunValue.run_result m ρ)
  · refine (θ_run Cert.ReferenceIdeal.defs _ _).mono (fun r h c => ⟨(h c).1.trans ?_, (h c).2⟩)
      (Cert.ReferenceIdeal.RefRun.run (F := Ideal) m' ρ')
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
